-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S2000x128 : Shape := ⟨2, ![2000, 128]⟩
abbrev S1600000x128 : Shape := ⟨2, ![1600000, 128]⟩
abbrev S1x128 : Shape := ⟨2, ![1, 128]⟩
abbrev S100000x1 : Shape := ⟨2, ![100000, 1]⟩
abbrev S2000x1 : Shape := ⟨2, ![2000, 1]⟩
abbrev S100000x16 : Shape := ⟨2, ![100000, 16]⟩
abbrev S2000x16 : Shape := ⟨2, ![2000, 16]⟩
abbrev S1600000x16 : Shape := ⟨2, ![1600000, 16]⟩
abbrev S1x16 : Shape := ⟨2, ![1, 16]⟩

abbrev nBuf : Space → Nat
  | .hbm => 149
  | .vmem => 42
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S_, .f32⟩
  | 23 => ⟨S1600000, .f32⟩
  | 24 => ⟨S100000, .f32⟩
  | 25 => ⟨S_, .f32⟩
  | 26 => ⟨S100000, .f32⟩
  | 27 => ⟨S100000, .f32⟩
  | 28 => ⟨S100000, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S1x128, .f32⟩
  | 67 => ⟨S100000x1, .f32⟩
  | 68 => ⟨S100000x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S1600000x1, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S100000, .f32⟩
  | 106 => ⟨S1x128, .f32⟩
  | 107 => ⟨S100000x1, .f32⟩
  | 108 => ⟨S100000x128, .f32⟩
  | 109 => ⟨S100000x16, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000, .f32⟩
  | _ => ⟨S100000x128, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x16, .f32⟩
  | 10 => ⟨S1600000x1, .f32⟩
  | 11 => ⟨S1600000x16, .f32⟩
  | 12 => ⟨S1600000x16, .f32⟩
  | 13 => ⟨S_, .f32⟩
  | 14 => ⟨S100000x16, .f32⟩
  | 15 => ⟨S1600000x1, .i32⟩
  | 16 => ⟨S100000x16, .f32⟩
  | 17 => ⟨S100000, .f32⟩
  | 18 => ⟨S1x16, .f32⟩
  | 19 => ⟨S100000x1, .f32⟩
  | 20 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S1x128, .f32⟩
  | .local _ .vmem, ⟨10, _⟩ => ⟨S2000x1, .f32⟩
  | .local _ .vmem, ⟨11, _⟩ => ⟨S2000x1, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x16, .f32⟩
  | .local _ .vmem, ⟨31, _⟩ => ⟨S2000x16, .f32⟩
  | .local _ .vmem, ⟨32, _⟩ => ⟨S2000x16, .f32⟩
  | .local _ .vmem, ⟨33, _⟩ => ⟨S2000x16, .f32⟩
  | .local _ .vmem, ⟨34, _⟩ => ⟨S2000x16, .f32⟩
  | .local _ .vmem, ⟨35, _⟩ => ⟨S2000x16, .f32⟩
  | .local _ .vmem, ⟨36, _⟩ => ⟨S2000x16, .f32⟩
  | .local _ .vmem, ⟨37, _⟩ => ⟨S1x16, .f32⟩
  | .local _ .vmem, ⟨38, _⟩ => ⟨S2000x1, .f32⟩
  | .local _ .vmem, ⟨39, _⟩ => ⟨S2000x1, .f32⟩
  | .local _ .vmem, ⟨40, _⟩ => ⟨S2000x16, .f32⟩
  | .local _ .vmem, ⟨41, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_19 : Ref sig .tc := ⟨.hbm, 119, rfl⟩
abbrev main_v90 : Ref sig .tc := ⟨.hbm, 120, rfl⟩
abbrev main_v91 : Ref sig .tc := ⟨.hbm, 121, rfl⟩
abbrev main_c_20 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_21 : Ref sig .tc := ⟨.hbm, 129, rfl⟩
abbrev main_v98 : Ref sig .tc := ⟨.hbm, 130, rfl⟩
abbrev main_v99 : Ref sig .tc := ⟨.hbm, 131, rfl⟩
abbrev main_c_22 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_23 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x16 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  broadcasts_S2000x1_S2000x16 : S2000x1.Broadcasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x16_S2000x16_1_0_0_1_n_n_wf : DotDims.WF S2000x128 S128x16 S2000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .f32 = 32 ∨ (Rect.block (s := S100000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x16.size a ≤ S100000x16.size a
  hwx4_2 : ∀ i : grid4.Coords, EltTy.bits .f32 = 32 ∨ (Rect.block (s := S100000x16) S2000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x16.size a ≤ S100000x16.size a
  hwx5_0 : ∀ i : grid5.Coords, EltTy.bits .f32 = 32 ∨ (Rect.block (s := S100000x16) S2000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x16.size a ≤ S100000x16.size a
  hwx5_1 : ∀ i : grid5.Coords, EltTy.bits .f32 = 32 ∨ (Rect.block (s := S100000x16) S2000x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x1.size a ≤ S100000x1.size a
  hwx5_3 : ∀ i : grid5.Coords, EltTy.bits .f32 = 32 ∨ (Rect.block (s := S100000x1) S2000x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x16.size a ≤ S100000x16.size a
  hwx5_4 : ∀ i : grid5.Coords, EltTy.bits .f32 = 32 ∨ (Rect.block (s := S100000x16) S2000x16.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v77) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v80) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v81) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v81) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S2000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v110) S2000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S2000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S2000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v114) S2000x16.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S_, .f32⟩
  | 23 => ⟨S1600000, .f32⟩
  | 24 => ⟨S100000, .f32⟩
  | 25 => ⟨S_, .f32⟩
  | 26 => ⟨S100000, .f32⟩
  | 27 => ⟨S100000, .f32⟩
  | 28 => ⟨S100000, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S1600000x1, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .f32⟩
  | 105 => ⟨S1600000x1, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000, .f32⟩
  | 113 => ⟨S100000x1, .f32⟩
  | 114 => ⟨S100000x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x16, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S1600000, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x16, .f32⟩
  | 24 => ⟨S1600000x1, .f32⟩
  | 25 => ⟨S1600000x16, .f32⟩
  | 26 => ⟨S1600000x16, .f32⟩
  | 27 => ⟨S_, .f32⟩
  | 28 => ⟨S100000x16, .f32⟩
  | 29 => ⟨S1600000x1, .i32⟩
  | 30 => ⟨S100000x16, .f32⟩
  | 31 => ⟨S100000, .f32⟩
  | 32 => ⟨S100000x1, .f32⟩
  | 33 => ⟨S100000x16, .f32⟩
  | 34 => ⟨S100000x16, .f32⟩
  | 35 => ⟨S100000x16, .f32⟩
  | 36 => ⟨S1x16, .f32⟩
  | 37 => ⟨S100000x16, .f32⟩
  | 38 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_14 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_call1_cst : Ref sig .tc := ⟨.hbm, 120, rfl⟩
abbrev main_call1_v0 : Ref sig .tc := ⟨.hbm, 121, rfl⟩
abbrev main_v91 : Ref sig .tc := ⟨.hbm, 122, rfl⟩
abbrev main_v92 : Ref sig .tc := ⟨.hbm, 123, rfl⟩
abbrev main_c_17 : Ref sig .tc := ⟨.hbm, 124, rfl⟩
abbrev main_v93 : Ref sig .tc := ⟨.hbm, 125, rfl⟩
abbrev main_v94 : Ref sig .tc := ⟨.hbm, 126, rfl⟩
abbrev main_c_18 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_19 : Ref sig .tc := ⟨.hbm, 133, rfl⟩
abbrev main_v100 : Ref sig .tc := ⟨.hbm, 134, rfl⟩
abbrev main_v101 : Ref sig .tc := ⟨.hbm, 135, rfl⟩
abbrev main_c_20 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_21 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_23 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x16_S100000x16_1_0_0_1_n_n_wf : DotDims.WF S100000x128 S128x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibLayerForms.lean ====
/-
  ONE GRAPH-CONVOLUTION LAYER'S TWO DENSE STEPS AS WHOLE-ARRAY FUNCTIONS, index by index on the extended reals.

  `dense X W` is the matrix product: entry (p, q) is the sum over k of X (p, k) · W (k, q).
  `combine agg h b s` adds, to the collected neighbour messages `agg`, the node's own features scaled by its
  self-loop weight — row p of `h` times the p-th entry of the one-column array `s` — and then the bias, the one-row
  array `b` laid along every row: entry (p, q) is (agg (p, q) + h (p, q) · s (p, 0)) + b (0, q).
  `combineRelu` is the larger of that and zero.

  The host spells the same arrays with broadcasts: the product is its `dot_general`; the scale is a vector broadcast
  first to a column and then across the columns, the bias a vector broadcast first to a row and then down the rows.
  Recasting a vector of n entries as a column (n × 1) or as a row (1 × n) keeps entry p at (p, 0), respectively (0, p),
  so the host's sums are `combine` of the recast vectors. No law of arithmetic is used: every entry is the same
  expression on both sides.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«170677_j58720792871581_1_alg».proof.Proof.LibMatOps
import proofs.«170677_j58720792871581_1_alg».proof.Proof.LibColumnCast

noncomputable section

open scoped BigOperators

namespace Cert.LayerForms

open Idealize.ShloMosaic Idealize.ShloMosaic.ValueIdx

section
variable {N K C : Nat}

/-- The matrix product, entry by entry. -/
def dense (X : FVec Ideal ⟨2, ![N, K]⟩ .f32) (W : FVec Ideal ⟨2, ![K, C]⟩ .f32) : FVec Ideal ⟨2, ![N, C]⟩ .f32 :=
  fun i => ∑ k : Fin K, X (ix2 (i 0 : Fin N) k) * W (ix2 k (i 1 : Fin C))

theorem dense_apply (X : FVec Ideal ⟨2, ![N, K]⟩ .f32) (W : FVec Ideal ⟨2, ![K, C]⟩ .f32) (p : Fin N) (q : Fin C) :
    dense X W (ix2 p q) = ∑ k : Fin K, X (ix2 p k) * W (ix2 k q) := rfl

/-- The host's plain product of an N × K by a K × C array is `dense`. -/
theorem dotGeneral_eq_dense (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] [])
    (hd : d = Cert.MatOps.plainDot N K C wf)
    (X : FVec Ideal ⟨2, ![N, K]⟩ .f32) (W : FVec Ideal ⟨2, ![K, C]⟩ .f32) :
    Host.dotGeneral d none X W = dense X W := by
  subst hd
  funext i
  obtain ⟨p, q, rfl⟩ : ∃ (p : Fin N) (q : Fin C), i = ix2 p q := ⟨i 0, i 1, eq_ix2 i⟩
  exact Cert.MatOps.dotGeneral_plain_apply wf none _ X W p q

/-- Messages plus the scaled own features plus the bias, entry by entry. -/
def combine (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => (agg i + h i * s (ix2 (i 0 : Fin N) (0 : Fin 1))) + b (ix2 (0 : Fin 1) (i 1 : Fin C))

/-- The same, cut off below at zero. -/
def combineRelu (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => max (combine agg h b s i) (Ideal.ofBits .f32 0x00000000#32)

/-- A vector broadcast to a column and then across C columns reads, at (p, q), its entry p. -/
theorem column_then_across (sv : FVec Ideal ⟨1, ![N]⟩ .f32)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 sv) (ix2 p q) = sv (ix1 p) := by
  refine (broadcastInDim_apply ![0, 1] h2 _ (ix2 p q) (ix2 p (0 : Fin 1)) fun a => ?_).trans
    (broadcastInDim_apply ![0] h1 sv (ix2 p (0 : Fin 1)) (ix1 p) fun a => ?_)
  · match a with
    | ⟨0, _⟩ =>
      show p.val = if N = 1 then 0 else p.val
      split
      · have := p.isLt; omega
      · rfl
    | ⟨1, _⟩ => rfl
  · match a with
    | ⟨0, _⟩ =>
      show p.val = if N = 1 then 0 else p.val
      split
      · have := p.isLt; omega
      · rfl

/-- A vector broadcast to a row and then down N rows reads, at (p, q), its entry q. -/
theorem row_then_down (bv : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 bv) (ix2 p q) = bv (ix1 q) := by
  refine (broadcastInDim_oneRow_apply h2 _ p q).trans
    (broadcastInDim_apply ![1] h1 bv (ix2 (0 : Fin 1) q) (ix1 q) fun a => ?_)
  match a with
  | ⟨0, _⟩ =>
    show q.val = if C = 1 then 0 else q.val
    split
    · have := q.isLt; omega
    · rfl

/-- The host's spelling of one layer's last step — the scale broadcast to a column and across, the bias to a row and
    down — is `combine` of the vectors recast as a column and as a row. -/
theorem host_combine (agg h : FVec Ideal ⟨2, ![N, C]⟩ .f32) (bv : FVec Ideal ⟨1, ![C]⟩ .f32) (sv : FVec Ideal ⟨1, ![N]⟩ .f32)
    (hs1 : (⟨1, ![N]⟩ : Shape).BroadcastsInDim ⟨2, ![N, 1]⟩ ![0])
    (hs2 : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (cs : (⟨1, ![N]⟩ : Shape).ShapeCasts ⟨2, ![N, 1]⟩) (cb : (⟨1, ![C]⟩ : Shape).ShapeCasts ⟨2, ![1, C]⟩) :
    addf (addf agg (mulf h (broadcastInDim ⟨2, ![N, C]⟩ ![0, 1] hs2 (broadcastInDim ⟨2, ![N, 1]⟩ ![0] hs1 sv))))
        (broadcastInDim ⟨2, ![N, C]⟩ ![0, 1] hb2 (broadcastInDim ⟨2, ![1, C]⟩ ![1] hb1 bv))
      = combine agg h (shapeCast ⟨2, ![1, C]⟩ bv cb) (shapeCast ⟨2, ![N, 1]⟩ sv cs) := by
  funext i
  obtain ⟨p, q, rfl⟩ : ∃ (p : Fin N) (q : Fin C), i = ix2 p q := ⟨i 0, i 1, eq_ix2 i⟩
  show (agg (ix2 p q) + h (ix2 p q) * broadcastInDim ⟨2, ![N, C]⟩ ![0, 1] hs2 (broadcastInDim ⟨2, ![N, 1]⟩ ![0] hs1 sv) (ix2 p q))
      + broadcastInDim ⟨2, ![N, C]⟩ ![0, 1] hb2 (broadcastInDim ⟨2, ![1, C]⟩ ![1] hb1 bv) (ix2 p q)
    = (agg (ix2 p q) + h (ix2 p q) * shapeCast ⟨2, ![N, 1]⟩ sv cs (ix2 p (0 : Fin 1)))
      + shapeCast ⟨2, ![1, C]⟩ bv cb (ix2 (0 : Fin 1) q)
  rw [column_then_across sv hs1 hs2 p q, row_then_down bv hb1 hb2 p q,
    Cert.LibColumnCast.column_cast sv cs p 0, shapeCast_a_1a_apply bv cb (0 : Fin 1) q]

/-- The host's cut-off at zero of an array is the entrywise larger of it and zero. -/
theorem host_relu (x : FVec Ideal ⟨2, ![N, C]⟩ .f32) (h0 : (⟨0, ![]⟩ : Shape).BroadcastsInDim ⟨2, ![N, C]⟩ ![]) :
    maximumf x (broadcastInDim ⟨2, ![N, C]⟩ ![] h0 (constant (F := Ideal) ⟨0, ![]⟩ .f32 0x00000000#32))
      = fun i => max (x i) (Ideal.ofBits .f32 0x00000000#32) := by
  funext i
  show max (x i) (broadcastInDim ⟨2, ![N, C]⟩ ![] h0 (constant (F := Ideal) ⟨0, ![]⟩ .f32 0x00000000#32) i) = _
  rw [broadcastInDim_apply ![] h0 _ i ix0 (fun a => a.elim0)]
  rfl

end

end Cert.LayerForms

end
-- ==== Proof.Network.lean ====
/-
  THE THREE-LAYER GRAPH CONVOLUTION AS NAMED ARRAY FUNCTIONS, and its two spellings of a layer.

  From the edge list (two rows of node numbers: sources `s`, destinations `d`; a negative number counts from the end,
  `wrapped`) the network first counts, per node, the edges arriving at it, adds one for the self-loop and takes the
  inverse square root: `invSqrtDeg d`, written `dis` below. An edge's weight is `dis` at its source times `dis` at
  its destination (`edgeWeight`); a node's self-loop weight is `dis` squared (`selfWeight`).

  One layer maps node features X to h = X · W, gathers h's rows at the edges' sources, scales each by the edge's
  weight and adds them up at the edges' destinations (`collect`), adds h scaled row by row by the self-loop
  weight, adds the bias, and (except in the last layer) cuts off below at zero.

  `hostLayer…` spells the layer with the host's operations throughout. `tiledLayer…` has the product as
  `dense` and the last step as `combine` / `combineRelu` of the bias recast as a row and the self-loop weights recast as
  a column. The two are the same array (`tiledLayer128_eq`, `tiledLayer16_eq`): entry by entry the same expression,
  and the gathering and adding-up in between is literally the same function applied to equal arrays.
-/
import proofs.«170677_j58720792871581_1_alg».proof.ReferenceIdeal
import proofs.«170677_j58720792871581_1_alg».proof.Proof.Gen.ReferenceIdeal
import proofs.«170677_j58720792871581_1_alg».proof.Proof.LibLayerForms

noncomputable section

namespace Cert.Net

open Idealize.ShloMosaic Cert.ReferenceIdeal Cert.ReferenceIdeal.Gen Cert.LayerForms

/-- The edges' sources: row 0 of the edge list. -/
def src (e : IVec S2x1600000 32) : IVec S1600000 32 :=
  shapeCast S1600000 (extractStridedSlice S1x1600000 ![0, 0] e slices_S2x1600000_S1x1600000_0_0) shapeCasts_S1x1600000_S1600000

/-- The edges' destinations: row 1 of the edge list. -/
def dst (e : IVec S2x1600000 32) : IVec S1600000 32 :=
  shapeCast S1600000 (extractStridedSlice S1x1600000 ![1, 0] e slices_S2x1600000_S1x1600000_1_0) shapeCasts_S1x1600000_S1600000

/-- Node numbers as a one-column index array, a negative one counted from the end (v < 0 ↦ v + 100000). -/
def wrapped (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- (1 + number of edges arriving at the node) ^ (-1/2). -/
def invSqrtDeg (d : IVec S1600000 32) : FVec Ideal S100000 .f32 :=
  Host.rsqrt (addf
    (Host.scatterAdd scatter_S100000_S1600000x1_S1600000_n_0_0_1
      (broadcastInDim S100000 ![] bcast_S_S100000 (constant (F := Ideal) S_ .f32 0x00000000#32))
      (wrapped d)
      (broadcastInDim S1600000 ![] bcast_S_S1600000 (constant (F := Ideal) S_ .f32 0x3F800000#32)))
    (broadcastInDim S100000 ![] bcast_S_S100000 (constant (F := Ideal) S_ .f32 0x3F800000#32)))

/-- An edge's weight: `dis` at its source times `dis` at its destination. -/
def edgeWeight (s d : IVec S1600000 32) (dis : FVec Ideal S100000 .f32) : FVec Ideal S1600000 .f32 :=
  mulf (Host.gather gather_S100000_S1600000x1_S1600000_n_0_n_n_0_1_1 dis (wrapped s))
    (Host.gather gather_S100000_S1600000x1_S1600000_n_0_n_n_0_1_1 dis (wrapped d))

/-- A node's self-loop weight: `dis` squared. -/
def selfWeight (dis : FVec Ideal S100000 .f32) : FVec Ideal S100000 .f32 := mulf dis dis

/-- The weighted rows of `h` at the edges' sources, added up at the edges' destinations (128 columns). -/
def collect128 (s d : IVec S1600000 32) (dis : FVec Ideal S100000 .f32) (h : FVec Ideal S100000x128 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (mulf (Host.gather gather_S100000x128_S1600000x1_S1600000x128_1_0_n_n_0_1_1128 h (wrapped s))
      (broadcastInDim S1600000x128 ![0, 1] bcast_S1600000x1_S1600000x128_0_1
        (broadcastInDim S1600000x1 ![0] bcast_S1600000_S1600000x1_0 (edgeWeight s d dis))))

/-- The same with 16 columns. -/
def collect16 (s d : IVec S1600000 32) (dis : FVec Ideal S100000 .f32) (h : FVec Ideal S100000x16 .f32) :
    FVec Ideal S100000x16 .f32 :=
  Host.scatterAdd scatter_S100000x16_S1600000x1_S1600000x16_1_0_0_1
    (broadcastInDim S100000x16 ![] bcast_S_S100000x16 (constant (F := Ideal) S_ .f32 0x00000000#32))
    (broadcastInDim S1600000x1 ![0] bcast_S1600000_S1600000x1_0 d)
    (mulf (Host.gather gather_S100000x16_S1600000x1_S1600000x16_1_0_n_n_0_1_116 h (wrapped s))
      (broadcastInDim S1600000x16 ![0, 1] bcast_S1600000x1_S1600000x16_0_1
        (broadcastInDim S1600000x1 ![0] bcast_S1600000_S1600000x1_0 (edgeWeight s d dis))))

/-! ## A layer, spelt by the host -/

/-- A hidden layer (128 → 128 features, cut off at zero) in the host's operations. -/
def hostLayer128 (s d : IVec S1600000 32) (dis : FVec Ideal S100000 .f32) (X : FVec Ideal S100000x128 .f32)
    (W : FVec Ideal S128x128 .f32) (b : FVec Ideal S128 .f32) : FVec Ideal S100000x128 .f32 :=
  maximumf
    (addf
      (addf (collect128 s d dis (Host.dotGeneral dot_S100000x128_S128x128_S100000x128_1_0_0_1_n_n none X W))
        (mulf (Host.dotGeneral dot_S100000x128_S128x128_S100000x128_1_0_0_1_n_n none X W)
          (broadcastInDim S100000x128 ![0, 1] bcast_S100000x1_S100000x128_0_1
            (broadcastInDim S100000x1 ![0] bcast_S100000_S100000x1_0 (selfWeight dis)))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The output layer (128 → 16 features, no cut-off) in the host's operations. -/
def hostLayer16 (s d : IVec S1600000 32) (dis : FVec Ideal S100000 .f32) (X : FVec Ideal S100000x128 .f32)
    (W : FVec Ideal S128x16 .f32) (b : FVec Ideal S16 .f32) : FVec Ideal S100000x16 .f32 :=
  addf
    (addf (collect16 s d dis (Host.dotGeneral dot_S100000x128_S128x16_S100000x16_1_0_0_1_n_n none X W))
      (mulf (Host.dotGeneral dot_S100000x128_S128x16_S100000x16_1_0_0_1_n_n none X W)
        (broadcastInDim S100000x16 ![0, 1] bcast_S100000x1_S100000x16_0_1
          (broadcastInDim S100000x1 ![0] bcast_S100000_S100000x1_0 (selfWeight dis)))))
    (broadcastInDim S100000x16 ![0, 1] bcast_S1x16_S100000x16_0_1 (broadcastInDim S1x16 ![1] bcast_S16_S1x16_1 b))

/-- The network in the host's operations. -/
def hostNet (x : FVec Ideal S100000x128 .f32) (e : IVec S2x1600000 32) (w1 : FVec Ideal S128x128 .f32) (b1 : FVec Ideal S128 .f32)
    (w2 : FVec Ideal S128x128 .f32) (b2 : FVec Ideal S128 .f32) (w3 : FVec Ideal S128x16 .f32) (b3 : FVec Ideal S16 .f32) :
    FVec Ideal S100000x16 .f32 :=
  hostLayer16 (src e) (dst e) (invSqrtDeg (dst e))
    (hostLayer128 (src e) (dst e) (invSqrtDeg (dst e))
      (hostLayer128 (src e) (dst e) (invSqrtDeg (dst e)) x w1 b1) w2 b2) w3 b3

/-! ## A layer, with the product and the last step entry by entry -/

theorem cast_S100000_col : S100000.ShapeCasts S100000x1 := by decide
theorem cast_S128_row : S128.ShapeCasts S1x128 := by decide
theorem cast_S16_row : S16.ShapeCasts S1x16 := by decide

def tiledLayer128 (s d : IVec S1600000 32) (dis : FVec Ideal S100000 .f32) (X : FVec Ideal S100000x128 .f32)
    (W : FVec Ideal S128x128 .f32) (b : FVec Ideal S128 .f32) : FVec Ideal S100000x128 .f32 :=
  combineRelu (collect128 s d dis (dense X W)) (dense X W) (shapeCast S1x128 b cast_S128_row)
    (shapeCast S100000x1 (selfWeight dis) cast_S100000_col)

def tiledLayer16 (s d : IVec S1600000 32) (dis : FVec Ideal S100000 .f32) (X : FVec Ideal S100000x128 .f32)
    (W : FVec Ideal S128x16 .f32) (b : FVec Ideal S16 .f32) : FVec Ideal S100000x16 .f32 :=
  combine (collect16 s d dis (dense X W)) (dense X W) (shapeCast S1x16 b cast_S16_row)
    (shapeCast S100000x1 (selfWeight dis) cast_S100000_col)

def tiledNet (x : FVec Ideal S100000x128 .f32) (e : IVec S2x1600000 32) (w1 : FVec Ideal S128x128 .f32) (b1 : FVec Ideal S128 .f32)
    (w2 : FVec Ideal S128x128 .f32) (b2 : FVec Ideal S128 .f32) (w3 : FVec Ideal S128x16 .f32) (b3 : FVec Ideal S16 .f32) :
    FVec Ideal S100000x16 .f32 :=
  tiledLayer16 (src e) (dst e) (invSqrtDeg (dst e))
    (tiledLayer128 (src e) (dst e) (invSqrtDeg (dst e))
      (tiledLayer128 (src e) (dst e) (invSqrtDeg (dst e)) x w1 b1) w2 b2) w3 b3

theorem tiledLayer128_eq (s d : IVec S1600000 32) (dis : FVec Ideal S100000 .f32) (X : FVec Ideal S100000x128 .f32)
    (W : FVec Ideal S128x128 .f32) (b : FVec Ideal S128 .f32) :
    tiledLayer128 s d dis X W b = hostLayer128 s d dis X W b := by
  unfold tiledLayer128 hostLayer128
  rw [dotGeneral_eq_dense dot_S100000x128_S128x128_S100000x128_1_0_0_1_n_n
      dot_S100000x128_S128x128_S100000x128_1_0_0_1_n_n.wf rfl X W,
    host_relu, host_combine _ _ b (selfWeight dis) _ _ _ _ cast_S100000_col cast_S128_row]
  rfl

theorem tiledLayer16_eq (s d : IVec S1600000 32) (dis : FVec Ideal S100000 .f32) (X : FVec Ideal S100000x128 .f32)
    (W : FVec Ideal S128x16 .f32) (b : FVec Ideal S16 .f32) :
    tiledLayer16 s d dis X W b = hostLayer16 s d dis X W b := by
  unfold tiledLayer16 hostLayer16
  rw [dotGeneral_eq_dense dot_S100000x128_S128x16_S100000x16_1_0_0_1_n_n
      dot_S100000x128_S128x16_S100000x16_1_0_0_1_n_n.wf rfl X W,
    host_combine _ _ b (selfWeight dis) _ _ _ _ cast_S100000_col cast_S16_row]

theorem tiledNet_eq (x : FVec Ideal S100000x128 .f32) (e : IVec S2x1600000 32) (w1 : FVec Ideal S128x128 .f32) (b1 : FVec Ideal S128 .f32)
    (w2 : FVec Ideal S128x128 .f32) (b2 : FVec Ideal S128 .f32) (w3 : FVec Ideal S128x16 .f32) (b3 : FVec Ideal S16 .f32) :
    tiledNet x e w1 b1 w2 b2 w3 b3 = hostNet x e w1 b1 w2 b2 w3 b3 := by
  unfold tiledNet hostNet
  rw [tiledLayer16_eq, tiledLayer128_eq, tiledLayer128_eq]

end Cert.Net

end
-- ==== Proof.KernelRun.lean ====
/-
  THE WHOLE PROGRAM'S RUN WITH ITS RESULT NAMED. The program is ten segments — four stretches of host operations
  and six tiled regions —, and the buffer contents at each boundary are a fold from the launch memory: a stretch
  applies its operations, a region leaves in each of its output arrays what its grid points wrote back and every
  other buffer as it was. Every weakly fair execution terminates without a fault with every buffer at the last
  boundary's contents; read at the result buffer that is `W10 … main_v114`, and at the argument arrays the launch
  contents.
-/
import proofs.«170677_j58720792871581_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v114) = W10 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v114 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Whole

end
-- ==== Proof.Region0.lean ====
/-
  REGION 0 — the first layer's product, tile by tile. The grid has 50 points; point t multiplies rows
  2000·t … 2000·t + 1999 of the node features (a 2000 × 128 block) by the whole 128 × 128 weight matrix and writes the
  2000 × 128 result to the same rows of the output. Entry (p, q) of a block's result is the sum over k of
  (row 2000·t + p of the features at k) · (weights at (k, q)) — entry (2000·t + p, q) of the whole product
  `dense X W` —, and the 50 row bands tile the output, so the output array ends holding `dense X W`.
  (Rounding the operands to bf16 before the product is the identity on exact values.)
-/
import proofs.«170677_j58720792871581_1_alg».proof.Proof.Gen.KernelIdeal.Frame
import proofs.«170677_j58720792871581_1_alg».proof.Proof.LibLayerForms
import Idealize.ShloMosaic.Lib.ValueIdx
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerForms

variable (V : (c : Dev nD) → (b : Ref sig .tc) → Buf (Elt Ideal) ((c : Thread nD τ).loc b))

theorem origin : (![0, 0] : Fin 2 → Nat) = fun _ => 0 := funext fun a => by fin_cases a <;> rfl

/-- A block's product at (p, q): the sum over k of the feature block at (p, k) times the weights at (k, q). -/
theorem payload_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact Cert.MatOps.matmul_plain_apply dot_S2000x128_S128x128_S2000x128_1_0_0_1_n_n.wf none _ _ p q

/-- The block index maps over the grid: features and output move down one band per point, the weights stay. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is band t of the whole product. -/
theorem flushed_eq (c : Dev nD) (t : Fin cfg0.N) :
    (dat0 (F := Ideal) V c).flushed 2 t
      = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := index_maps t
  have ht : t.val < 50 := by have h := t.isLt; have hN : cfg0.N = 50 := N_0; omega
  funext j
  obtain ⟨p, q, rfl⟩ : ∃ (p : Fin 2000) (q : Fin 128), j = ix2 p q := ⟨j 0, j 1, eq_ix2 j⟩
  refine (payload_apply (iblk0 V c 0 t) (iblk0 V c 1 t) p q).trans ?_
  have hp : p.val < 2000 := p.isLt
  have hq : q.val < 128 := q.isLt
  have hout : ((cfg0.win 2).blk t).view.emb (ix2 p q) = (ix2 (⟨t.val * 2000 + p.val, by omega⟩ : Fin 100000) q : S100000x128.Idx) := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show _ = dense (V c main_arg0) (V c main_arg2) (((cfg0.win 2).blk t).view.emb (ix2 p q))
  rw [hout, dense_apply]
  refine Finset.sum_congr rfl fun k _ => ?_
  have hk : k.val < 128 := k.isLt
  have hx : iblk0 V c 0 t (ix2 p k) = V c main_arg0 (ix2 (⟨t.val * 2000 + p.val, by omega⟩ : Fin 100000) k : S100000x128.Idx) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have hw : iblk0 V c 1 t (ix2 k q) = V c main_arg2 (ix2 k q : S128x128.Idx) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [hx, hw]

/-- An index of the output is in point t's band iff its row is. -/
theorem mem_band (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v16).slice (win0_2.rect t)).set ↔ _
  rw [View.set_slice_whole, Rect.mem_set_unit]
  exact Iff.rfl

/-- The grid point whose band holds row r. -/
def band (r : Nat) (h : r < 100000) : Fin cfg0.N :=
  ⟨r / 2000, by have hN : grid0.N = 50 := N_0; show r / 2000 < grid0.N; omega⟩

/-- Row r lies in band r / 2000: the bands tile the output. -/
theorem bands_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨band (i 0).val hi0, flush0_2 _, ?_⟩
  rw [mem_band]
  obtain ⟨_, _, _, _, e4, e5⟩ := index_maps (band (i 0).val hi0)
  have hb : (band (i 0).val hi0).val = (i 0).val / 2000 := rfl
  intro a
  match a with
  | ⟨0, _⟩ =>
    show win0_2.index (band (i 0).val hi0) (0 : Fin 2) * 2000 ≤ (i 0).val ∧ (i 0).val < win0_2.index (band (i 0).val hi0) (0 : Fin 2) * 2000 + 2000
    omega
  | ⟨1, _⟩ =>
    show win0_2.index (band (i 0).val hi0) (1 : Fin 2) * 128 ≤ (i 1).val ∧ (i 1).val < win0_2.index (band (i 0).val hi0) (1 : Fin 2) * 128 + 128
    omega

/-- THE OUTPUT ARRAY after the region: the whole product of the two input arrays as the region found them. -/
theorem final (c : Dev nD) :
    (dat0 (F := Ideal) V c).arrAt 2 cfg0.N = dense (V c main_arg0) (V c main_arg2) :=
  (dat0 V c).arrAt_eq_of_cover 2 _ (fun t _ => flushed_eq V c t) bands_cover

end Cert.KernelIdeal.Region0

end
-- ==== Proof.Region1.lean ====
/-
  REGION 1 — the first layer's last step, tile by tile. The grid has 50 points; point t takes rows
  2000·t … 2000·t + 1999 of the collected messages and of the product h (2000 × 128 blocks), the same rows of the
  one-column array of self-loop weights (a 2000 × 1 block) and the whole one-row bias (1 × 128), and writes
  max ((messages + h · weight of the row) + bias of the column, 0) to the same rows of the output. Entry (p, q) of
  block t is entry (2000·t + p, q) of `combineRelu` of the four whole arrays, and the 50 row bands tile the output.
-/
import proofs.«170677_j58720792871581_1_alg».proof.Proof.Gen.KernelIdeal.Frame
import proofs.«170677_j58720792871581_1_alg».proof.Proof.LibLayerForms
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerForms

variable (V : (c : Dev nD) → (b : Ref sig .tc) → Buf (Elt Ideal) ((c : Thread nD τ).loc b))

theorem origin : (![0, 0] : Fin 2 → Nat) = fun _ => 0 := funext fun a => by fin_cases a <;> rfl

/-- A block's result at (p, q), from the blocks of messages `x0`, product `x1`, self-loop weights `x3` and bias `x2`. -/
theorem payload_apply (x0 x1 : Vec Ideal S2000x128 .f32) (x3 : Vec Ideal S2000x1 .f32) (x2 : Vec Ideal S1x128 .f32)
    (p : Fin 2000) (q : Fin 128) :
    k1_pay1 x0 x1 x3 x2 (ix2 p q)
      = max ((x0 (ix2 p q) + x1 (ix2 p q) * x3 (ix2 p (0 : Fin 1))) + x2 (ix2 (0 : Fin 1) q)) (Ideal.ofBits .f32 0x00000000#32) := by
  unfold k1_pay1
  simp only [maximumf_apply, addf_apply, mulf_apply, broadcast_apply, shapeCast_self,
    Cert.MatOps.broadcastTo_a1_ab_apply, broadcastTo_1b_ab_apply]
  rfl

/-- The block index maps over the grid: messages, product, weights and output move down one band per point, the bias stays. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point t writes back is band t of `combineRelu` of the four arrays. -/
theorem flushed_eq (c : Dev nD) (t : Fin cfg1.N) :
    (dat1 (F := Ideal) V c).flushed 4 t
      = ((cfg1.win 4).blk t).view.read (Elt Ideal) (combineRelu (V c main_v44) (V c main_v16) (V c main_v46) (V c main_v47)) := by
  show (cfg1.win 4).cut (grid1.coords t) ((dat1 V c).after 4 t) = _
  rw [after1_4]
  unfold out1_4
  rw [View.canon_unit_zero origin]
  simp only [View.ld_unit_zero (S := S2000x128) origin, View.ld_unit_zero (S := S2000x1) origin, View.ld_unit_zero (S := S1x128) origin]
  obtain ⟨e0, e1, e2, e3, e4, e5, e6, e7, e8, e9⟩ := index_maps t
  have ht : t.val < 50 := by have h := t.isLt; have hN : cfg1.N = 50 := N_1; omega
  funext j
  obtain ⟨p, q, rfl⟩ : ∃ (p : Fin 2000) (q : Fin 128), j = ix2 p q := ⟨j 0, j 1, eq_ix2 j⟩
  refine (payload_apply (iblk1 V c 0 t) (iblk1 V c 1 t) (iblk1 V c 3 t) (iblk1 V c 2 t) p q).trans ?_
  have hp : p.val < 2000 := p.isLt
  have hq : q.val < 128 := q.isLt
  have hout : ((cfg1.win 4).blk t).view.emb (ix2 p q) = (ix2 (⟨t.val * 2000 + p.val, by omega⟩ : Fin 100000) q : S100000x128.Idx) := by
    funext a; apply Fin.ext
    match a with
    | ⟨0, _⟩ => show win1_4.index t (0 : Fin 2) * 2000 + 1 * p.val = t.val * 2000 + p.val; omega
    | ⟨1, _⟩ => show win1_4.index t (1 : Fin 2) * 128 + 1 * q.val = q.val; omega
  have h0 : iblk1 V c 0 t (ix2 p q) = V c main_v44 (ix2 (⟨t.val * 2000 + p.val, by omega⟩ : Fin 100000) q : S100000x128.Idx) := by
    show V c main_v44 (((cfg1.win 0).blk t).view.emb (ix2 p q)) = _
    refine congrArg (V c main_v44) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * q.val = q.val; omega
  have h1 : iblk1 V c 1 t (ix2 p q) = V c main_v16 (ix2 (⟨t.val * 2000 + p.val, by omega⟩ : Fin 100000) q : S100000x128.Idx) := by
    show V c main_v16 (((cfg1.win 1).blk t).view.emb (ix2 p q)) = _
    refine congrArg (V c main_v16) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * q.val = q.val; omega
  have h2 : iblk1 V c 2 t (ix2 (0 : Fin 1) q) = V c main_v46 (ix2 (0 : Fin 1) q : S1x128.Idx) := by
    show V c main_v46 (((cfg1.win 2).blk t).view.emb (ix2 (0 : Fin 1) q)) = _
    refine congrArg (V c main_v46) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  have h3 : iblk1 V c 3 t (ix2 p (0 : Fin 1)) = V c main_v47 (ix2 (⟨t.val * 2000 + p.val, by omega⟩ : Fin 100000) (0 : Fin 1) : S100000x1.Idx) := by
    show V c main_v47 (((cfg1.win 3).blk t).view.emb (ix2 p (0 : Fin 1))) = _
    refine congrArg (V c main_v47) (funext fun a => Fin.ext ?_)
    match a with
    | ⟨0, _⟩ => show win1_3.index t (0 : Fin 2) * 2000 + 1 * p.val = t.val * 2000 + p.val; omega
    | ⟨1, _⟩ => show win1_3.index t (1 : Fin 2) * 1 + 1 * 0 = 0; omega
  show _ = combineRelu (V c main_v44) (V c main_v16) (V c main_v46) (V c main_v47) (((cfg1.win 4).blk t).view.emb (ix2 p q))
  rw [hout, h0, h1, h2, h3]
  rfl

/-- An index of the output is in point t's band iff its row is. -/
theorem mem_band (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v48).slice (win1_4.rect t)).set ↔ _
  rw [View.set_slice_whole, Rect.mem_set_unit]
  exact Iff.rfl

/-- The grid point whose band holds row r. -/
def band (r : Nat) (h : r < 100000) : Fin cfg1.N :=
  ⟨r / 2000, by have hN : grid1.N = 50 := N_1; show r / 2000 < grid1.N; omega⟩

/-- Row r lies in band r / 2000: the bands tile the output. -/
theorem bands_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  refine ⟨band (i 0).val hi0, flush1_4 _, ?_⟩
  rw [mem_band]
  obtain ⟨_, _, _, _, _, _, _, _, e8, e9⟩ := index_maps (band (i 0).val hi0)
  have hb : (band (i 0).val hi0).val = (i 0).val / 2000 := rfl
  intro a
  match a with
  | ⟨0, _⟩ =>
    show win1_4.index (band (i 0).val hi0) (0 : Fin 2) * 2000 ≤ (i 0).val ∧ (i 0).val < win1_4.index (band (i 0).val hi0) (0 : Fin 2) * 2000 + 2000
    omega
  | ⟨1, _⟩ =>
    show win1_4.index (band (i 0).val hi0) (1 : Fin 2) * 128 ≤ (i 1).val ∧ (i 1).val < win1_4.index (band (i 0).val hi0) (1 : Fin 2) * 128 + 128
    omega

/-- THE OUTPUT ARRAY after the region: `combineRelu` of the four input arrays as the region found them. -/
theorem final (c : Dev nD) :
    (dat1 (F := Ideal) V c).arrAt 4 cfg1.N = combineRelu (V c main_v44) (V c main_v16) (V c main_v46) (V c main_v47) :=
  (dat1 V c).arrAt_eq_of_cover 4 _ (fun t _ => flushed_eq V c t) bands_cover

end Cert.KernelIdeal.Region1

end
-- ==== Proof.Region2.lean ====
/-
  REGION 2 — the second layer's product, tile by tile. The grid has 50 points; point t multiplies rows
  2000·t … 2000·t + 1999 of the first layer's output (a 2000 × 128 block) by the whole 128 × 128 weight matrix and writes the
  2000 × 128 result to the same rows of the output. Entry (p, q) of a block's result is the sum over k of
  (row 2000·t + p of the features at k) · (weights at (k, q)) — entry (2000·t + p, q) of the whole product
  `dense X W` —, and the 50 row bands tile the output, so the output array ends holding `dense X W`.
  (Rounding the operands to bf16 before the product is the identity on exact values.)
-/
import proofs.«170677_j58720792871581_1_alg».proof.Proof.Gen.KernelIdeal.Frame
import proofs.«170677_j58720792871581_1_alg».proof.Proof.LibLayerForms
import Idealize.ShloMosaic.Lib.ValueIdx
import Idealize.ShloMosaic.Lib.Pipeline.Value

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerForms

variable (V : (c : Dev nD) → (b : Ref sig .tc) → Buf (Elt Ideal) ((c : Thread nD τ).loc b))

theorem origin : (![0, 0] : Fin 2 → Nat) = fun _ => 0 := funext fun a => by fin_cases a <;> rfl

/-- A block's product at (p, q): the sum over k of the feature block at (p, k) times the weights at (k, q). -/
theorem payload_apply (x0 : Vec Ideal S2000x128 .f32) (x1 : Vec Ideal S128x128 .f32) (p : Fin 2000) (q : Fin 128) :
    k2_pay1 x0 x1 (ix2 p q) = ∑ k : Fin 128, x0 (ix2 p k) * x1 (ix2 k q) := by
  unfold k2_pay1
  simp only [shapeCast_self]
  exact Cert.MatOps.matmul_plain_apply dot_S2000x128_S128x128_S2000x128_1_0_0_1_n_n.wf none _ _ p q

/-- The block index maps over the grid: features and output move down one band per point, the weights stay. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is band t of the whole product. -/
theorem flushed_eq (c : Dev nD) (t : Fin cfg2.N) :
    (dat2 (F := Ideal) V c).flushed 2 t
      = ((cfg2.win 2).blk t).view.read (Elt Ideal) (dense (V c main_v48) (V c main_arg4)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x128) origin]
  obtain ⟨e0, e1, e2, e3, e4, e5⟩ := index_maps t
  have ht : t.val < 50 := by have h := t.isLt; have hN : cfg2.N = 50 := N_2; omega
  funext j
  obtain ⟨p, q, rfl⟩ : ∃ (p : Fin 2000) (q : Fin 128), j = ix2 p q := ⟨j 0, j 1, eq_ix2 j⟩
  refine (payload_apply (iblk2 V c 0 t) (iblk2 V c 1 t) p q).trans ?_
  have hp : p.val < 2000 := p.isLt
  have hq : q.val < 128 := q.isLt
  have hout : ((cfg2.win 2).blk t).view.emb (ix2 p q) = (ix2 (⟨t.val * 2000 + p.val, by omega⟩ : Fin 100000) q : S100000x128.Idx) := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  show _ = dense (V c main_v48) (V c main_arg4) (((cfg2.win 2).blk t).view.emb (ix2 p q))
  rw [hout, dense_apply]
  refine Finset.sum_congr rfl fun k _ => ?_
  have hk : k.val < 128 := k.isLt
  have hx : iblk2 V c 0 t (ix2 p k) = V c main_v48 (ix2 (⟨t.val * 2000 + p.val, by omega⟩ : Fin 100000) k : S100000x128.Idx) := by
    show V c main_v48 (((cfg2.win 0).blk t).view.emb (ix2 p k)) = _
    refine congrArg (V c main_v48) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  have hw : iblk2 V c 1 t (ix2 k q) = V c main_arg4 (ix2 k q : S128x128.Idx) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  rw [hx, hw]

/-- An index of the output is in point t's band iff its row is. -/
theorem mem_band (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v49).slice (win2_2.rect t)).set ↔ _
  rw [View.set_slice_whole, Rect.mem_set_unit]
  exact Iff.rfl

/-- The grid point whose band holds row r. -/
def band (r : Nat) (h : r < 100000) : Fin cfg2.N :=
  ⟨r / 2000, by have hN : grid2.N = 50 := N_2; show r / 2000 < grid2.N; omega⟩

/-- Row r lies in band r / 2000: the bands tile the output. -/
theorem bands_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  refine ⟨band (i 0).val hi0, flush2_2 _, ?_⟩
  rw [mem_band]
  obtain ⟨_, _, _, _, e4, e5⟩ := index_maps (band (i 0).val hi0)
  have hb : (band (i 0).val hi0).val = (i 0).val / 2000 := rfl
  intro a
  match a with
  | ⟨0, _⟩ =>
    show win2_2.index (band (i 0).val hi0) (0 : Fin 2) * 2000 ≤ (i 0).val ∧ (i 0).val < win2_2.index (band (i 0).val hi0) (0 : Fin 2) * 2000 + 2000
    omega
  | ⟨1, _⟩ =>
    show win2_2.index (band (i 0).val hi0) (1 : Fin 2) * 128 ≤ (i 1).val ∧ (i 1).val < win2_2.index (band (i 0).val hi0) (1 : Fin 2) * 128 + 128
    omega

/-- THE OUTPUT ARRAY after the region: the whole product of the two input arrays as the region found them. -/
theorem final (c : Dev nD) :
    (dat2 (F := Ideal) V c).arrAt 2 cfg2.N = dense (V c main_v48) (V c main_arg4) :=
  (dat2 V c).arrAt_eq_of_cover 2 _ (fun t _ => flushed_eq V c t) bands_cover

end Cert.KernelIdeal.Region2

end
-- ==== Proof.Region3.lean ====
/-
  REGION 3 — the second layer's last step, tile by tile. The grid has 50 points; point t takes rows
  2000·t … 2000·t + 1999 of the collected messages and of the product h (2000 × 128 blocks), the same rows of the
  one-column array of self-loop weights (a 2000 × 1 block) and the whole one-row bias (1 × 128), and writes
  max ((messages + h · weight of the row) + bias of the column, 0) to the same rows of the output. Entry (p, q) of
  block t is entry (2000·t + p, q) of `combineRelu` of the four whole arrays, and the 50 row bands tile the output.
-/
import proofs.«170677_j58720792871581_1_alg».proof.Proof.Gen.KernelIdeal.Frame
import proofs.«170677_j58720792871581_1_alg».proof.Proof.LibLayerForms
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerForms

variable (V : (c : Dev nD) → (b : Ref sig .tc) → Buf (Elt Ideal) ((c : Thread nD τ).loc b))

theorem origin : (![0, 0] : Fin 2 → Nat) = fun _ => 0 := funext fun a => by fin_cases a <;> rfl

/-- A block's result at (p, q), from the blocks of messages `x0`, product `x1`, self-loop weights `x3` and bias `x2`. -/
theorem payload_apply (x0 x1 : Vec Ideal S2000x128 .f32) (x3 : Vec Ideal S2000x1 .f32) (x2 : Vec Ideal S1x128 .f32)
    (p : Fin 2000) (q : Fin 128) :
    k3_pay1 x0 x1 x3 x2 (ix2 p q)
      = max ((x0 (ix2 p q) + x1 (ix2 p q) * x3 (ix2 p (0 : Fin 1))) + x2 (ix2 (0 : Fin 1) q)) (Ideal.ofBits .f32 0x00000000#32) := by
  unfold k3_pay1
  simp only [maximumf_apply, addf_apply, mulf_apply, broadcast_apply, shapeCast_self,
    Cert.MatOps.broadcastTo_a1_ab_apply, broadcastTo_1b_ab_apply]
  rfl

/-- The block index maps over the grid: messages, product, weights and output move down one band per point, the bias stays. -/
theorem index_maps : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back is band t of `combineRelu` of the four arrays. -/
theorem flushed_eq (c : Dev nD) (t : Fin cfg3.N) :
    (dat3 (F := Ideal) V c).flushed 4 t
      = ((cfg3.win 4).blk t).view.read (Elt Ideal) (combineRelu (V c main_v77) (V c main_v49) (V c main_v79) (V c main_v80)) := by
  show (cfg3.win 4).cut (grid3.coords t) ((dat3 V c).after 4 t) = _
  rw [after3_4]
  unfold out3_4
  rw [View.canon_unit_zero origin]
  simp only [View.ld_unit_zero (S := S2000x128) origin, View.ld_unit_zero (S := S2000x1) origin, View.ld_unit_zero (S := S1x128) origin]
  obtain ⟨e0, e1, e2, e3, e4, e5, e6, e7, e8, e9⟩ := index_maps t
  have ht : t.val < 50 := by have h := t.isLt; have hN : cfg3.N = 50 := N_3; omega
  funext j
  obtain ⟨p, q, rfl⟩ : ∃ (p : Fin 2000) (q : Fin 128), j = ix2 p q := ⟨j 0, j 1, eq_ix2 j⟩
  refine (payload_apply (iblk3 V c 0 t) (iblk3 V c 1 t) (iblk3 V c 3 t) (iblk3 V c 2 t) p q).trans ?_
  have hp : p.val < 2000 := p.isLt
  have hq : q.val < 128 := q.isLt
  have hout : ((cfg3.win 4).blk t).view.emb (ix2 p q) = (ix2 (⟨t.val * 2000 + p.val, by omega⟩ : Fin 100000) q : S100000x128.Idx) := by
    funext a; apply Fin.ext
    match a with
    | ⟨0, _⟩ => show win3_4.index t (0 : Fin 2) * 2000 + 1 * p.val = t.val * 2000 + p.val; omega
    | ⟨1, _⟩ => show win3_4.index t (1 : Fin 2) * 128 + 1 * q.val = q.val; omega
  have h0 : iblk3 V c 0 t (ix2 p q) = V c main_v77 (ix2 (⟨t.val * 2000 + p.val, by omega⟩ : Fin 100000) q : S100000x128.Idx) := by
    show V c main_v77 (((cfg3.win 0).blk t).view.emb (ix2 p q)) = _
    refine congrArg (V c main_v77) (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * q.val = q.val; omega
  have h1 : iblk3 V c 1 t (ix2 p q) = V c main_v49 (ix2 (⟨t.val * 2000 + p.val, by omega⟩ : Fin 100000) q : S100000x128.Idx) := by
    show V c main_v49 (((cfg3.win 1).blk t).view.emb (ix2 p q)) = _
    refine congrArg (V c main_v49) (funext fun a => Fin.ext ?_)
    match a with
    | ⟨0, _⟩ => show win3_1.index t (0 : Fin 2) * 2000 + 1 * p.val = t.val * 2000 + p.val; omega
    | ⟨1, _⟩ => show win3_1.index t (1 : Fin 2) * 128 + 1 * q.val = q.val; omega
  have h2 : iblk3 V c 2 t (ix2 (0 : Fin 1) q) = V c main_v79 (ix2 (0 : Fin 1) q : S1x128.Idx) := by
    show V c main_v79 (((cfg3.win 2).blk t).view.emb (ix2 (0 : Fin 1) q)) = _
    refine congrArg (V c main_v79) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  have h3 : iblk3 V c 3 t (ix2 p (0 : Fin 1)) = V c main_v80 (ix2 (⟨t.val * 2000 + p.val, by omega⟩ : Fin 100000) (0 : Fin 1) : S100000x1.Idx) := by
    show V c main_v80 (((cfg3.win 3).blk t).view.emb (ix2 p (0 : Fin 1))) = _
    refine congrArg (V c main_v80) (funext fun a => Fin.ext ?_)
    match a with
    | ⟨0, _⟩ => show win3_3.index t (0 : Fin 2) * 2000 + 1 * p.val = t.val * 2000 + p.val; omega
    | ⟨1, _⟩ => show win3_3.index t (1 : Fin 2) * 1 + 1 * 0 = 0; omega
  show _ = combineRelu (V c main_v77) (V c main_v49) (V c main_v79) (V c main_v80) (((cfg3.win 4).blk t).view.emb (ix2 p q))
  rw [hout, h0, h1, h2, h3]
  rfl

/-- An index of the output is in point t's band iff its row is. -/
theorem mem_band (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v81).slice (win3_4.rect t)).set ↔ _
  rw [View.set_slice_whole, Rect.mem_set_unit]
  exact Iff.rfl

/-- The grid point whose band holds row r. -/
def band (r : Nat) (h : r < 100000) : Fin cfg3.N :=
  ⟨r / 2000, by have hN : grid3.N = 50 := N_3; show r / 2000 < grid3.N; omega⟩

/-- Row r lies in band r / 2000: the bands tile the output. -/
theorem bands_cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  refine ⟨band (i 0).val hi0, flush3_4 _, ?_⟩
  rw [mem_band]
  obtain ⟨_, _, _, _, _, _, _, _, e8, e9⟩ := index_maps (band (i 0).val hi0)
  have hb : (band (i 0).val hi0).val = (i 0).val / 2000 := rfl
  intro a
  match a with
  | ⟨0, _⟩ =>
    show win3_4.index (band (i 0).val hi0) (0 : Fin 2) * 2000 ≤ (i 0).val ∧ (i 0).val < win3_4.index (band (i 0).val hi0) (0 : Fin 2) * 2000 + 2000
    omega
  | ⟨1, _⟩ =>
    show win3_4.index (band (i 0).val hi0) (1 : Fin 2) * 128 ≤ (i 1).val ∧ (i 1).val < win3_4.index (band (i 0).val hi0) (1 : Fin 2) * 128 + 128
    omega

/-- THE OUTPUT ARRAY after the region: `combineRelu` of the four input arrays as the region found them. -/
theorem final (c : Dev nD) :
    (dat3 (F := Ideal) V c).arrAt 4 cfg3.N = combineRelu (V c main_v77) (V c main_v49) (V c main_v79) (V c main_v80) :=
  (dat3 V c).arrAt_eq_of_cover 4 _ (fun t _ => flushed_eq V c t) bands_cover

end Cert.KernelIdeal.Region3

end
-- ==== Proof.Region4.lean ====
/-
  REGION 4 — the third layer's product, tile by tile. The grid has 50 points; point t multiplies rows
  2000·t … 2000·t + 1999 of the second layer's output (a 2000 × 128 block) by the whole 128 × 16 weight matrix and writes the
  2000 × 16 result to the same rows of the output. Entry (p, q) of a block's result is the sum over k of
  (row 2000·t + p of the features at k) · (weights at (k, q)) — entry (2000·t + p, q) of the whole product
  `dense X W` —, and the 50 row bands tile the output, so the output array ends holding `dense X W`.
  (Rounding the operands to bf16 before the product is the identity on exact values.)
-/
import proofs.«170677_j58720792871581_1_alg».proof.Proof.Gen.KernelIdeal.Frame
import proofs.«170677_j58720792871581_1_alg».proof.Proof.LibLayerForms
import Idealize.ShloMosaic.Lib.ValueIdx
import Idealize.ShloMosaic.Lib.Pipeline.Value

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerForms

variable (V : (c : Dev nD) → (b : Ref sig .tc) → Buf (Elt Ideal) ((c : Thread nD τ).loc b))

theorem origin : (![0, 0] : Fin 2 → Nat) = fun _ => 0 := funext fun a => by fin_cases a <;> rfl

/-- A block's product at (p, q): the sum over k of the feature block at (p, k) times the weights at (k, q). -/
theorem payload_apply (x0 : Vec Ideal S2000x128 .f32) (x1 : Vec Ideal S128x16 .f32) (p : Fin 2000) (q : Fin 16) :
    k4_pay1 x0 x1 (ix2 p q) = ∑ k : Fin 128, x0 (ix2 p k) * x1 (ix2 k q) := by
  unfold k4_pay1
  simp only [shapeCast_self]
  exact Cert.MatOps.matmul_plain_apply dot_S2000x128_S128x16_S2000x16_1_0_0_1_n_n.wf none _ _ p q

/-- The block index maps over the grid: features and output move down one band per point, the weights stay. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is band t of the whole product. -/
theorem flushed_eq (c : Dev nD) (t : Fin cfg4.N) :
    (dat4 (F := Ideal) V c).flushed 2 t
      = ((cfg4.win 2).blk t).view.read (Elt Ideal) (dense (V c main_v81) (V c main_arg6)) := by
  show (cfg4.win 2).cut (grid4.coords t) ((dat4 V c).after 2 t) = _
  rw [after4_2]
  unfold out4_2
  rw [View.canon_unit_zero origin]
  simp only [View.ld_unit_zero (S := S2000x128) origin, View.ld_unit_zero (S := S128x16) origin]
  obtain ⟨e0, e1, e2, e3, e4, e5⟩ := index_maps t
  have ht : t.val < 50 := by have h := t.isLt; have hN : cfg4.N = 50 := N_4; omega
  funext j
  obtain ⟨p, q, rfl⟩ : ∃ (p : Fin 2000) (q : Fin 16), j = ix2 p q := ⟨j 0, j 1, eq_ix2 j⟩
  refine (payload_apply (iblk4 V c 0 t) (iblk4 V c 1 t) p q).trans ?_
  have hp : p.val < 2000 := p.isLt
  have hq : q.val < 16 := q.isLt
  have hout : ((cfg4.win 2).blk t).view.emb (ix2 p q) = (ix2 (⟨t.val * 2000 + p.val, by omega⟩ : Fin 100000) q : S100000x16.Idx) := by
    funext a; apply Fin.ext
    match a with
    | ⟨0, _⟩ => show win4_2.index t (0 : Fin 2) * 2000 + 1 * p.val = t.val * 2000 + p.val; omega
    | ⟨1, _⟩ => show win4_2.index t (1 : Fin 2) * 16 + 1 * q.val = q.val; omega
  show _ = dense (V c main_v81) (V c main_arg6) (((cfg4.win 2).blk t).view.emb (ix2 p q))
  rw [hout, dense_apply]
  refine Finset.sum_congr rfl fun k _ => ?_
  have hk : k.val < 128 := k.isLt
  have hx : iblk4 V c 0 t (ix2 p k) = V c main_v81 (ix2 (⟨t.val * 2000 + p.val, by omega⟩ : Fin 100000) k : S100000x128.Idx) := by
    show V c main_v81 (((cfg4.win 0).blk t).view.emb (ix2 p k)) = _
    refine congrArg (V c main_v81) (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  have hw : iblk4 V c 1 t (ix2 k q) = V c main_arg6 (ix2 k q : S128x16.Idx) := by
    show V c main_arg6 (((cfg4.win 1).blk t).view.emb (ix2 k q)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 16 + 1 * q.val = q.val; omega
  rw [hx, hw]

/-- An index of the output is in point t's band iff its row is. -/
theorem mem_band (t : Fin cfg4.N) (i : S100000x16.Idx) :
    i ∈ ((cfg4.win 2).blk t).view.set ↔ ∀ a : Fin 2, win4_2.index t a * S2000x16.size a ≤ (i a).val ∧ (i a).val < win4_2.index t a * S2000x16.size a + S2000x16.size a := by
  show i ∈ ((View.whole main_v82).slice (win4_2.rect t)).set ↔ _
  rw [View.set_slice_whole, Rect.mem_set_unit]
  exact Iff.rfl

/-- The grid point whose band holds row r. -/
def band (r : Nat) (h : r < 100000) : Fin cfg4.N :=
  ⟨r / 2000, by have hN : grid4.N = 50 := N_4; show r / 2000 < grid4.N; omega⟩

/-- Row r lies in band r / 2000: the bands tile the output. -/
theorem bands_cover (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  refine ⟨band (i 0).val hi0, flush4_2 _, ?_⟩
  rw [mem_band]
  obtain ⟨_, _, _, _, e4, e5⟩ := index_maps (band (i 0).val hi0)
  have hb : (band (i 0).val hi0).val = (i 0).val / 2000 := rfl
  intro a
  match a with
  | ⟨0, _⟩ =>
    show win4_2.index (band (i 0).val hi0) (0 : Fin 2) * 2000 ≤ (i 0).val ∧ (i 0).val < win4_2.index (band (i 0).val hi0) (0 : Fin 2) * 2000 + 2000
    omega
  | ⟨1, _⟩ =>
    show win4_2.index (band (i 0).val hi0) (1 : Fin 2) * 16 ≤ (i 1).val ∧ (i 1).val < win4_2.index (band (i 0).val hi0) (1 : Fin 2) * 16 + 16
    omega

/-- THE OUTPUT ARRAY after the region: the whole product of the two input arrays as the region found them. -/
theorem final (c : Dev nD) :
    (dat4 (F := Ideal) V c).arrAt 2 cfg4.N = dense (V c main_v81) (V c main_arg6) :=
  (dat4 V c).arrAt_eq_of_cover 2 _ (fun t _ => flushed_eq V c t) bands_cover

end Cert.KernelIdeal.Region4

end
-- ==== Proof.Region5.lean ====
/-
  REGION 5 — the third layer's last step, tile by tile. The grid has 50 points; point t takes rows
  2000·t … 2000·t + 1999 of the collected messages and of the product h (2000 × 16 blocks), the same rows of the
  one-column array of self-loop weights (a 2000 × 1 block) and the whole one-row bias (1 × 16), and writes
  (messages + h · weight of the row) + bias of the column to the same rows of the output (the last layer has no cut-off). Entry (p, q) of
  block t is entry (2000·t + p, q) of `combine` of the four whole arrays, and the 50 row bands tile the output.
-/
import proofs.«170677_j58720792871581_1_alg».proof.Proof.Gen.KernelIdeal.Frame
import proofs.«170677_j58720792871581_1_alg».proof.Proof.LibLayerForms
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerForms

variable (V : (c : Dev nD) → (b : Ref sig .tc) → Buf (Elt Ideal) ((c : Thread nD τ).loc b))

theorem origin : (![0, 0] : Fin 2 → Nat) = fun _ => 0 := funext fun a => by fin_cases a <;> rfl

/-- A block's result at (p, q), from the blocks of messages `x0`, product `x1`, self-loop weights `x3` and bias `x2`. -/
theorem payload_apply (x0 x1 : Vec Ideal S2000x16 .f32) (x3 : Vec Ideal S2000x1 .f32) (x2 : Vec Ideal S1x16 .f32)
    (p : Fin 2000) (q : Fin 16) :
    k5_pay1 x0 x1 x3 x2 (ix2 p q)
      = (x0 (ix2 p q) + x1 (ix2 p q) * x3 (ix2 p (0 : Fin 1))) + x2 (ix2 (0 : Fin 1) q) := by
  unfold k5_pay1
  simp only [addf_apply, mulf_apply, shapeCast_self, Cert.MatOps.broadcastTo_a1_ab_apply, broadcastTo_1b_ab_apply]

/-- The block index maps over the grid: messages, product, weights and output move down one band per point, the bias stays. -/
theorem index_maps : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- What point t writes back is band t of `combine` of the four arrays. -/
theorem flushed_eq (c : Dev nD) (t : Fin cfg5.N) :
    (dat5 (F := Ideal) V c).flushed 4 t
      = ((cfg5.win 4).blk t).view.read (Elt Ideal) (combine (V c main_v110) (V c main_v82) (V c main_v112) (V c main_v113)) := by
  show (cfg5.win 4).cut (grid5.coords t) ((dat5 V c).after 4 t) = _
  rw [after5_4]
  unfold out5_4
  rw [View.canon_unit_zero origin]
  simp only [View.ld_unit_zero (S := S2000x16) origin, View.ld_unit_zero (S := S2000x1) origin, View.ld_unit_zero (S := S1x16) origin]
  obtain ⟨e0, e1, e2, e3, e4, e5, e6, e7, e8, e9⟩ := index_maps t
  have ht : t.val < 50 := by have h := t.isLt; have hN : cfg5.N = 50 := N_5; omega
  funext j
  obtain ⟨p, q, rfl⟩ : ∃ (p : Fin 2000) (q : Fin 16), j = ix2 p q := ⟨j 0, j 1, eq_ix2 j⟩
  refine (payload_apply (iblk5 V c 0 t) (iblk5 V c 1 t) (iblk5 V c 3 t) (iblk5 V c 2 t) p q).trans ?_
  have hp : p.val < 2000 := p.isLt
  have hq : q.val < 16 := q.isLt
  have hout : ((cfg5.win 4).blk t).view.emb (ix2 p q) = (ix2 (⟨t.val * 2000 + p.val, by omega⟩ : Fin 100000) q : S100000x16.Idx) := by
    funext a; apply Fin.ext
    match a with
    | ⟨0, _⟩ => show win5_4.index t (0 : Fin 2) * 2000 + 1 * p.val = t.val * 2000 + p.val; omega
    | ⟨1, _⟩ => show win5_4.index t (1 : Fin 2) * 16 + 1 * q.val = q.val; omega
  have h0 : iblk5 V c 0 t (ix2 p q) = V c main_v110 (ix2 (⟨t.val * 2000 + p.val, by omega⟩ : Fin 100000) q : S100000x16.Idx) := by
    show V c main_v110 (((cfg5.win 0).blk t).view.emb (ix2 p q)) = _
    refine congrArg (V c main_v110) (funext fun a => Fin.ext ?_)
    match a with
    | ⟨0, _⟩ => show win5_0.index t (0 : Fin 2) * 2000 + 1 * p.val = t.val * 2000 + p.val; omega
    | ⟨1, _⟩ => show win5_0.index t (1 : Fin 2) * 16 + 1 * q.val = q.val; omega
  have h1 : iblk5 V c 1 t (ix2 p q) = V c main_v82 (ix2 (⟨t.val * 2000 + p.val, by omega⟩ : Fin 100000) q : S100000x16.Idx) := by
    show V c main_v82 (((cfg5.win 1).blk t).view.emb (ix2 p q)) = _
    refine congrArg (V c main_v82) (funext fun a => Fin.ext ?_)
    match a with
    | ⟨0, _⟩ => show win5_1.index t (0 : Fin 2) * 2000 + 1 * p.val = t.val * 2000 + p.val; omega
    | ⟨1, _⟩ => show win5_1.index t (1 : Fin 2) * 16 + 1 * q.val = q.val; omega
  have h2 : iblk5 V c 2 t (ix2 (0 : Fin 1) q) = V c main_v112 (ix2 (0 : Fin 1) q : S1x16.Idx) := by
    show V c main_v112 (((cfg5.win 2).blk t).view.emb (ix2 (0 : Fin 1) q)) = _
    refine congrArg (V c main_v112) (funext fun a => Fin.ext ?_)
    match a with
    | ⟨0, _⟩ => show win5_2.index t (0 : Fin 2) * 1 + 1 * 0 = 0; omega
    | ⟨1, _⟩ => show win5_2.index t (1 : Fin 2) * 16 + 1 * q.val = q.val; omega
  have h3 : iblk5 V c 3 t (ix2 p (0 : Fin 1)) = V c main_v113 (ix2 (⟨t.val * 2000 + p.val, by omega⟩ : Fin 100000) (0 : Fin 1) : S100000x1.Idx) := by
    show V c main_v113 (((cfg5.win 3).blk t).view.emb (ix2 p (0 : Fin 1))) = _
    refine congrArg (V c main_v113) (funext fun a => Fin.ext ?_)
    match a with
    | ⟨0, _⟩ => show win5_3.index t (0 : Fin 2) * 2000 + 1 * p.val = t.val * 2000 + p.val; omega
    | ⟨1, _⟩ => show win5_3.index t (1 : Fin 2) * 1 + 1 * 0 = 0; omega
  show _ = combine (V c main_v110) (V c main_v82) (V c main_v112) (V c main_v113) (((cfg5.win 4).blk t).view.emb (ix2 p q))
  rw [hout, h0, h1, h2, h3]
  rfl

/-- An index of the output is in point t's band iff its row is. -/
theorem mem_band (t : Fin cfg5.N) (i : S100000x16.Idx) :
    i ∈ ((cfg5.win 4).blk t).view.set ↔ ∀ a : Fin 2, win5_4.index t a * S2000x16.size a ≤ (i a).val ∧ (i a).val < win5_4.index t a * S2000x16.size a + S2000x16.size a := by
  show i ∈ ((View.whole main_v114).slice (win5_4.rect t)).set ↔ _
  rw [View.set_slice_whole, Rect.mem_set_unit]
  exact Iff.rfl

/-- The grid point whose band holds row r. -/
def band (r : Nat) (h : r < 100000) : Fin cfg5.N :=
  ⟨r / 2000, by have hN : grid5.N = 50 := N_5; show r / 2000 < grid5.N; omega⟩

/-- Row r lies in band r / 2000: the bands tile the output. -/
theorem bands_cover (i : S100000x16.Idx) :
    ∃ t : Fin cfg5.N, (cfg5.win 4).flush t = true ∧ i ∈ ((cfg5.win 4).blk t).view.set := by
  have hi0 : (i 0).val < 100000 := (i 0).isLt
  have hi1 : (i 1).val < 16 := (i 1).isLt
  refine ⟨band (i 0).val hi0, flush5_4 _, ?_⟩
  rw [mem_band]
  obtain ⟨_, _, _, _, _, _, _, _, e8, e9⟩ := index_maps (band (i 0).val hi0)
  have hb : (band (i 0).val hi0).val = (i 0).val / 2000 := rfl
  intro a
  match a with
  | ⟨0, _⟩ =>
    show win5_4.index (band (i 0).val hi0) (0 : Fin 2) * 2000 ≤ (i 0).val ∧ (i 0).val < win5_4.index (band (i 0).val hi0) (0 : Fin 2) * 2000 + 2000
    omega
  | ⟨1, _⟩ =>
    show win5_4.index (band (i 0).val hi0) (1 : Fin 2) * 16 ≤ (i 1).val ∧ (i 1).val < win5_4.index (band (i 0).val hi0) (1 : Fin 2) * 16 + 16
    omega

/-- THE OUTPUT ARRAY after the region: `combine` of the four input arrays as the region found them. -/
theorem final (c : Dev nD) :
    (dat5 (F := Ideal) V c).arrAt 4 cfg5.N = combine (V c main_v110) (V c main_v82) (V c main_v112) (V c main_v113) :=
  (dat5 V c).arrAt_eq_of_cover 4 _ (fun t _ => flushed_eq V c t) bands_cover

end Cert.KernelIdeal.Region5

end
-- ==== Proof.Stretches.lean ====
/-
  THE FOUR STRETCHES OF HOST OPERATIONS, each read as array functions of the buffers it starts from (`W`: any
  contents). The first stretch cuts the edge list into sources and destinations and computes the inverse square
  roots of the degrees. Each of the other three — one per layer, between the layer's product and its last step —
  gathers the product's rows at the edges' sources, weighs them and adds them up at the destinations
  (`collect128` / `collect16`), recasts the layer's bias as a row and the squared inverse square roots as a column. A
  buffer no operation of a stretch writes keeps its contents.
-/
import proofs.«170677_j58720792871581_1_alg».proof.Proof.Gen.KernelIdeal.Launch
import proofs.«170677_j58720792871581_1_alg».proof.Proof.Network
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.Net

variable (W : Valuation τ sig (Elt Ideal))

/-- No operation of the stretch writes the buffer: one inequality of references per operation. -/
local macro "untouched" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## Before the first product: the edges' endpoints and the degrees -/

theorem s0_src : StableHlo.after (hostOps0 (F := Ideal)) W (Proc.devRef .tc main_v1) = src (W (Proc.devRef .tc main_arg1)) := by
  after_results; rfl
theorem s0_dst : StableHlo.after (hostOps0 (F := Ideal)) W (Proc.devRef .tc main_v3) = dst (W (Proc.devRef .tc main_arg1)) := by
  after_results; rfl
theorem s0_dis : StableHlo.after (hostOps0 (F := Ideal)) W (Proc.devRef .tc main_v15) = invSqrtDeg (dst (W (Proc.devRef .tc main_arg1))) := by
  after_results; rfl
theorem s0_keep_arg0 : StableHlo.after (hostOps0 (F := Ideal)) W (Proc.devRef .tc main_arg0) = W (Proc.devRef .tc main_arg0) := by untouched hostOps0
theorem s0_keep_arg2 : StableHlo.after (hostOps0 (F := Ideal)) W (Proc.devRef .tc main_arg2) = W (Proc.devRef .tc main_arg2) := by untouched hostOps0
theorem s0_keep_arg3 : StableHlo.after (hostOps0 (F := Ideal)) W (Proc.devRef .tc main_arg3) = W (Proc.devRef .tc main_arg3) := by untouched hostOps0
theorem s0_keep_arg4 : StableHlo.after (hostOps0 (F := Ideal)) W (Proc.devRef .tc main_arg4) = W (Proc.devRef .tc main_arg4) := by untouched hostOps0
theorem s0_keep_arg5 : StableHlo.after (hostOps0 (F := Ideal)) W (Proc.devRef .tc main_arg5) = W (Proc.devRef .tc main_arg5) := by untouched hostOps0
theorem s0_keep_arg6 : StableHlo.after (hostOps0 (F := Ideal)) W (Proc.devRef .tc main_arg6) = W (Proc.devRef .tc main_arg6) := by untouched hostOps0
theorem s0_keep_arg7 : StableHlo.after (hostOps0 (F := Ideal)) W (Proc.devRef .tc main_arg7) = W (Proc.devRef .tc main_arg7) := by untouched hostOps0

/-! ## Layer 1, between its product and its last step -/

set_option maxHeartbeats 4000000 in
theorem s1_collect : StableHlo.after (hostOps1 (F := Ideal)) W (Proc.devRef .tc main_v44)
    = collect128 (W (Proc.devRef .tc main_v1)) (W (Proc.devRef .tc main_v3)) (W (Proc.devRef .tc main_v15)) (W (Proc.devRef .tc main_v16)) := by
  after_results_simp <;> rfl
theorem s1_bias : StableHlo.after (hostOps1 (F := Ideal)) W (Proc.devRef .tc main_v46)
    = shapeCast Cert.ReferenceIdeal.S1x128 (W (Proc.devRef .tc main_arg3)) cast_S128_row := by
  after_results; rfl
theorem s1_self : StableHlo.after (hostOps1 (F := Ideal)) W (Proc.devRef .tc main_v47)
    = shapeCast Cert.ReferenceIdeal.S100000x1 (selfWeight (W (Proc.devRef .tc main_v15))) cast_S100000_col := by
  after_results; rfl
theorem s1_keep_v1 : StableHlo.after (hostOps1 (F := Ideal)) W (Proc.devRef .tc main_v1) = W (Proc.devRef .tc main_v1) := by untouched hostOps1
theorem s1_keep_v3 : StableHlo.after (hostOps1 (F := Ideal)) W (Proc.devRef .tc main_v3) = W (Proc.devRef .tc main_v3) := by untouched hostOps1
theorem s1_keep_v15 : StableHlo.after (hostOps1 (F := Ideal)) W (Proc.devRef .tc main_v15) = W (Proc.devRef .tc main_v15) := by untouched hostOps1
theorem s1_keep_v16 : StableHlo.after (hostOps1 (F := Ideal)) W (Proc.devRef .tc main_v16) = W (Proc.devRef .tc main_v16) := by untouched hostOps1
theorem s1_keep_arg4 : StableHlo.after (hostOps1 (F := Ideal)) W (Proc.devRef .tc main_arg4) = W (Proc.devRef .tc main_arg4) := by untouched hostOps1
theorem s1_keep_arg5 : StableHlo.after (hostOps1 (F := Ideal)) W (Proc.devRef .tc main_arg5) = W (Proc.devRef .tc main_arg5) := by untouched hostOps1
theorem s1_keep_arg6 : StableHlo.after (hostOps1 (F := Ideal)) W (Proc.devRef .tc main_arg6) = W (Proc.devRef .tc main_arg6) := by untouched hostOps1
theorem s1_keep_arg7 : StableHlo.after (hostOps1 (F := Ideal)) W (Proc.devRef .tc main_arg7) = W (Proc.devRef .tc main_arg7) := by untouched hostOps1

/-! ## Layer 2 -/

set_option maxHeartbeats 4000000 in
theorem s3_collect : StableHlo.after (hostOps3 (F := Ideal)) W (Proc.devRef .tc main_v77)
    = collect128 (W (Proc.devRef .tc main_v1)) (W (Proc.devRef .tc main_v3)) (W (Proc.devRef .tc main_v15)) (W (Proc.devRef .tc main_v49)) := by
  after_results_simp <;> rfl
theorem s3_bias : StableHlo.after (hostOps3 (F := Ideal)) W (Proc.devRef .tc main_v79)
    = shapeCast Cert.ReferenceIdeal.S1x128 (W (Proc.devRef .tc main_arg5)) cast_S128_row := by
  after_results; rfl
theorem s3_self : StableHlo.after (hostOps3 (F := Ideal)) W (Proc.devRef .tc main_v80)
    = shapeCast Cert.ReferenceIdeal.S100000x1 (selfWeight (W (Proc.devRef .tc main_v15))) cast_S100000_col := by
  after_results; rfl
theorem s3_keep_v1 : StableHlo.after (hostOps3 (F := Ideal)) W (Proc.devRef .tc main_v1) = W (Proc.devRef .tc main_v1) := by untouched hostOps3
theorem s3_keep_v3 : StableHlo.after (hostOps3 (F := Ideal)) W (Proc.devRef .tc main_v3) = W (Proc.devRef .tc main_v3) := by untouched hostOps3
theorem s3_keep_v15 : StableHlo.after (hostOps3 (F := Ideal)) W (Proc.devRef .tc main_v15) = W (Proc.devRef .tc main_v15) := by untouched hostOps3
theorem s3_keep_v49 : StableHlo.after (hostOps3 (F := Ideal)) W (Proc.devRef .tc main_v49) = W (Proc.devRef .tc main_v49) := by untouched hostOps3
theorem s3_keep_arg6 : StableHlo.after (hostOps3 (F := Ideal)) W (Proc.devRef .tc main_arg6) = W (Proc.devRef .tc main_arg6) := by untouched hostOps3
theorem s3_keep_arg7 : StableHlo.after (hostOps3 (F := Ideal)) W (Proc.devRef .tc main_arg7) = W (Proc.devRef .tc main_arg7) := by untouched hostOps3

/-! ## Layer 3 -/

set_option maxHeartbeats 4000000 in
theorem s5_collect : StableHlo.after (hostOps5 (F := Ideal)) W (Proc.devRef .tc main_v110)
    = collect16 (W (Proc.devRef .tc main_v1)) (W (Proc.devRef .tc main_v3)) (W (Proc.devRef .tc main_v15)) (W (Proc.devRef .tc main_v82)) := by
  after_results_simp <;> rfl
theorem s5_bias : StableHlo.after (hostOps5 (F := Ideal)) W (Proc.devRef .tc main_v112)
    = shapeCast Cert.ReferenceIdeal.S1x16 (W (Proc.devRef .tc main_arg7)) cast_S16_row := by
  after_results; rfl
theorem s5_self : StableHlo.after (hostOps5 (F := Ideal)) W (Proc.devRef .tc main_v113)
    = shapeCast Cert.ReferenceIdeal.S100000x1 (selfWeight (W (Proc.devRef .tc main_v15))) cast_S100000_col := by
  after_results; rfl
theorem s5_keep_v82 : StableHlo.after (hostOps5 (F := Ideal)) W (Proc.devRef .tc main_v82) = W (Proc.devRef .tc main_v82) := by untouched hostOps5

end Cert.KernelIdeal.Stretch

end
-- ==== Proof.Walk.lean ====
/-
  THE BUFFERS AT EVERY BOUNDARY OF THE PROGRAM, from the launch to the result. Written with the launch contents of
  the eight arguments (A0 … A7; A1 the edge list), the edges' sources SRC and destinations DST, and the inverse square
  roots of the degrees DIS:
    after the first stretch the sources, destinations and DIS are in their buffers;
    region 0 leaves the product A0 · A2; the next stretch the collected messages, the bias as a row and DIS² as a
    column; region 1 the first layer's output H1 (`tiledLayer128`);
    regions 2 and 3 with the stretch between them do the same from H1 with A4, A5: the second layer's output H2;
    regions 4 and 5 with the last stretch do it from H2 with A6, A7 and no cut-off: the result, `tiledNet`.
  Between its writers a buffer keeps its contents: a stretch keeps what it does not write, a region everything but
  its own output array.
-/
import proofs.«170677_j58720792871581_1_alg».proof.Proof.Gen.KernelIdeal.Frame
import proofs.«170677_j58720792871581_1_alg».proof.Proof.Region0
import proofs.«170677_j58720792871581_1_alg».proof.Proof.Region1
import proofs.«170677_j58720792871581_1_alg».proof.Proof.Region2
import proofs.«170677_j58720792871581_1_alg».proof.Proof.Region3
import proofs.«170677_j58720792871581_1_alg».proof.Proof.Region4
import proofs.«170677_j58720792871581_1_alg».proof.Proof.Region5
import proofs.«170677_j58720792871581_1_alg».proof.Proof.Stretches
import proofs.«170677_j58720792871581_1_alg».proof.Proof.Network

set_option maxRecDepth 16384

noncomputable section

namespace Cert.KernelIdeal.Walk

open Cert.KernelIdeal Cert.KernelIdeal.Gen
open Idealize.ShloMosaic Idealize.ShloMosaic.TcCoe Idealize.SL.Sem
open Cert.Net Cert.LayerForms

variable (m : (ℓ : Loc nD τ sig) → Buf (Elt Ideal) ℓ) (ρ : Dev nD → PrngReg) (c : Dev nD)

/-- Argument 0 as launched. -/
abbrev A0 := W0 m ρ c (Proc.devRef .tc main_arg0)
/-- Argument 1 as launched. -/
abbrev A1 := W0 m ρ c (Proc.devRef .tc main_arg1)
/-- Argument 2 as launched. -/
abbrev A2 := W0 m ρ c (Proc.devRef .tc main_arg2)
/-- Argument 3 as launched. -/
abbrev A3 := W0 m ρ c (Proc.devRef .tc main_arg3)
/-- Argument 4 as launched. -/
abbrev A4 := W0 m ρ c (Proc.devRef .tc main_arg4)
/-- Argument 5 as launched. -/
abbrev A5 := W0 m ρ c (Proc.devRef .tc main_arg5)
/-- Argument 6 as launched. -/
abbrev A6 := W0 m ρ c (Proc.devRef .tc main_arg6)
/-- Argument 7 as launched. -/
abbrev A7 := W0 m ρ c (Proc.devRef .tc main_arg7)
/-- The edges' sources. -/
abbrev SRC := src (A1 m ρ c)
/-- The edges' destinations. -/
abbrev DST := dst (A1 m ρ c)
/-- The inverse square roots of the degrees. -/
abbrev DIS := invSqrtDeg (dst (A1 m ρ c))
/-- The first layer's output. -/
abbrev H1 := tiledLayer128 (SRC m ρ c) (DST m ρ c) (DIS m ρ c) (A0 m ρ c) (A2 m ρ c) (A3 m ρ c)
/-- The second layer's output. -/
abbrev H2 := tiledLayer128 (SRC m ρ c) (DST m ρ c) (DIS m ρ c) (H1 m ρ c) (A4 m ρ c) (A5 m ρ c)

/-! ## After the first stretch -/

theorem w1_src : W1 m ρ c (Proc.devRef .tc main_v1) = (SRC m ρ c) := Stretch.s0_src (W0 m ρ c)
theorem w1_dst : W1 m ρ c (Proc.devRef .tc main_v3) = (DST m ρ c) := Stretch.s0_dst (W0 m ρ c)
theorem w1_dis : W1 m ρ c (Proc.devRef .tc main_v15) = (DIS m ρ c) := Stretch.s0_dis (W0 m ρ c)
theorem w1_arg0 : W1 m ρ c (Proc.devRef .tc main_arg0) = (A0 m ρ c) := Stretch.s0_keep_arg0 (W0 m ρ c)
theorem w1_arg2 : W1 m ρ c (Proc.devRef .tc main_arg2) = (A2 m ρ c) := Stretch.s0_keep_arg2 (W0 m ρ c)
theorem w1_arg3 : W1 m ρ c (Proc.devRef .tc main_arg3) = (A3 m ρ c) := Stretch.s0_keep_arg3 (W0 m ρ c)
theorem w1_arg4 : W1 m ρ c (Proc.devRef .tc main_arg4) = (A4 m ρ c) := Stretch.s0_keep_arg4 (W0 m ρ c)
theorem w1_arg5 : W1 m ρ c (Proc.devRef .tc main_arg5) = (A5 m ρ c) := Stretch.s0_keep_arg5 (W0 m ρ c)
theorem w1_arg6 : W1 m ρ c (Proc.devRef .tc main_arg6) = (A6 m ρ c) := Stretch.s0_keep_arg6 (W0 m ρ c)
theorem w1_arg7 : W1 m ρ c (Proc.devRef .tc main_arg7) = (A7 m ρ c) := Stretch.s0_keep_arg7 (W0 m ρ c)

/-! ## After region 0: the first product -/

theorem w2_h : W2 m ρ c (Proc.devRef .tc main_v16) = dense (A0 m ρ c) (A2 m ρ c) :=
  (W2_arr m ρ c 2).trans ((Region0.final (V1 m ρ) c).trans (congrArg₂ dense (w1_arg0 m ρ c) (w1_arg2 m ρ c)))
theorem w2_src : W2 m ρ c (Proc.devRef .tc main_v1) = (SRC m ρ c) :=
  (W2_of_ne m ρ c main_v1 (by decide)).trans (w1_src m ρ c)
theorem w2_dst : W2 m ρ c (Proc.devRef .tc main_v3) = (DST m ρ c) :=
  (W2_of_ne m ρ c main_v3 (by decide)).trans (w1_dst m ρ c)
theorem w2_dis : W2 m ρ c (Proc.devRef .tc main_v15) = (DIS m ρ c) :=
  (W2_of_ne m ρ c main_v15 (by decide)).trans (w1_dis m ρ c)
theorem w2_arg3 : W2 m ρ c (Proc.devRef .tc main_arg3) = (A3 m ρ c) :=
  (W2_of_ne m ρ c main_arg3 (by decide)).trans (w1_arg3 m ρ c)
theorem w2_arg4 : W2 m ρ c (Proc.devRef .tc main_arg4) = (A4 m ρ c) :=
  (W2_of_ne m ρ c main_arg4 (by decide)).trans (w1_arg4 m ρ c)
theorem w2_arg5 : W2 m ρ c (Proc.devRef .tc main_arg5) = (A5 m ρ c) :=
  (W2_of_ne m ρ c main_arg5 (by decide)).trans (w1_arg5 m ρ c)
theorem w2_arg6 : W2 m ρ c (Proc.devRef .tc main_arg6) = (A6 m ρ c) :=
  (W2_of_ne m ρ c main_arg6 (by decide)).trans (w1_arg6 m ρ c)
theorem w2_arg7 : W2 m ρ c (Proc.devRef .tc main_arg7) = (A7 m ρ c) :=
  (W2_of_ne m ρ c main_arg7 (by decide)).trans (w1_arg7 m ρ c)

/-! ## After the first layer's stretch -/

theorem w3_collect : W3 m ρ c (Proc.devRef .tc main_v44) = collect128 (SRC m ρ c) (DST m ρ c) (DIS m ρ c) (dense (A0 m ρ c) (A2 m ρ c)) :=
  (Stretch.s1_collect (W2 m ρ c)).trans (by rw [w2_src m ρ c, w2_dst m ρ c, w2_dis m ρ c, w2_h m ρ c])
theorem w3_bias : W3 m ρ c (Proc.devRef .tc main_v46) = shapeCast Cert.ReferenceIdeal.S1x128 (A3 m ρ c) cast_S128_row :=
  (Stretch.s1_bias (W2 m ρ c)).trans (by rw [w2_arg3 m ρ c])
theorem w3_self : W3 m ρ c (Proc.devRef .tc main_v47) = shapeCast Cert.ReferenceIdeal.S100000x1 (selfWeight (DIS m ρ c)) cast_S100000_col :=
  (Stretch.s1_self (W2 m ρ c)).trans (by rw [w2_dis m ρ c])
theorem w3_h : W3 m ρ c (Proc.devRef .tc main_v16) = dense (A0 m ρ c) (A2 m ρ c) := (Stretch.s1_keep_v16 (W2 m ρ c)).trans (w2_h m ρ c)
theorem w3_src : W3 m ρ c (Proc.devRef .tc main_v1) = (SRC m ρ c) :=
  (Stretch.s1_keep_v1 (W2 m ρ c)).trans (w2_src m ρ c)
theorem w3_dst : W3 m ρ c (Proc.devRef .tc main_v3) = (DST m ρ c) :=
  (Stretch.s1_keep_v3 (W2 m ρ c)).trans (w2_dst m ρ c)
theorem w3_dis : W3 m ρ c (Proc.devRef .tc main_v15) = (DIS m ρ c) :=
  (Stretch.s1_keep_v15 (W2 m ρ c)).trans (w2_dis m ρ c)
theorem w3_arg4 : W3 m ρ c (Proc.devRef .tc main_arg4) = (A4 m ρ c) :=
  (Stretch.s1_keep_arg4 (W2 m ρ c)).trans (w2_arg4 m ρ c)
theorem w3_arg5 : W3 m ρ c (Proc.devRef .tc main_arg5) = (A5 m ρ c) :=
  (Stretch.s1_keep_arg5 (W2 m ρ c)).trans (w2_arg5 m ρ c)
theorem w3_arg6 : W3 m ρ c (Proc.devRef .tc main_arg6) = (A6 m ρ c) :=
  (Stretch.s1_keep_arg6 (W2 m ρ c)).trans (w2_arg6 m ρ c)
theorem w3_arg7 : W3 m ρ c (Proc.devRef .tc main_arg7) = (A7 m ρ c) :=
  (Stretch.s1_keep_arg7 (W2 m ρ c)).trans (w2_arg7 m ρ c)

/-! ## After region 1: the first layer's output -/

theorem w4_out : W4 m ρ c (Proc.devRef .tc main_v48) = (H1 m ρ c) :=
  (W4_arr m ρ c 4).trans ((Region1.final (V3 m ρ) c).trans (by
    rw [show V3 m ρ c main_v44 = _ from w3_collect m ρ c, show V3 m ρ c main_v16 = _ from w3_h m ρ c,
      show V3 m ρ c main_v46 = _ from w3_bias m ρ c, show V3 m ρ c main_v47 = _ from w3_self m ρ c]
    rfl))
theorem w4_src : W4 m ρ c (Proc.devRef .tc main_v1) = (SRC m ρ c) :=
  (W4_of_ne m ρ c main_v1 (by decide)).trans (w3_src m ρ c)
theorem w4_dst : W4 m ρ c (Proc.devRef .tc main_v3) = (DST m ρ c) :=
  (W4_of_ne m ρ c main_v3 (by decide)).trans (w3_dst m ρ c)
theorem w4_dis : W4 m ρ c (Proc.devRef .tc main_v15) = (DIS m ρ c) :=
  (W4_of_ne m ρ c main_v15 (by decide)).trans (w3_dis m ρ c)
theorem w4_arg4 : W4 m ρ c (Proc.devRef .tc main_arg4) = (A4 m ρ c) :=
  (W4_of_ne m ρ c main_arg4 (by decide)).trans (w3_arg4 m ρ c)
theorem w4_arg5 : W4 m ρ c (Proc.devRef .tc main_arg5) = (A5 m ρ c) :=
  (W4_of_ne m ρ c main_arg5 (by decide)).trans (w3_arg5 m ρ c)
theorem w4_arg6 : W4 m ρ c (Proc.devRef .tc main_arg6) = (A6 m ρ c) :=
  (W4_of_ne m ρ c main_arg6 (by decide)).trans (w3_arg6 m ρ c)
theorem w4_arg7 : W4 m ρ c (Proc.devRef .tc main_arg7) = (A7 m ρ c) :=
  (W4_of_ne m ρ c main_arg7 (by decide)).trans (w3_arg7 m ρ c)

/-! ## After region 2: the second product -/

theorem w5_h : W5 m ρ c (Proc.devRef .tc main_v49) = dense (H1 m ρ c) (A4 m ρ c) :=
  (W5_arr m ρ c 2).trans ((Region2.final (V4 m ρ) c).trans (congrArg₂ dense (w4_out m ρ c) (w4_arg4 m ρ c)))
theorem w5_src : W5 m ρ c (Proc.devRef .tc main_v1) = (SRC m ρ c) :=
  (W5_of_ne m ρ c main_v1 (by decide)).trans (w4_src m ρ c)
theorem w5_dst : W5 m ρ c (Proc.devRef .tc main_v3) = (DST m ρ c) :=
  (W5_of_ne m ρ c main_v3 (by decide)).trans (w4_dst m ρ c)
theorem w5_dis : W5 m ρ c (Proc.devRef .tc main_v15) = (DIS m ρ c) :=
  (W5_of_ne m ρ c main_v15 (by decide)).trans (w4_dis m ρ c)
theorem w5_arg5 : W5 m ρ c (Proc.devRef .tc main_arg5) = (A5 m ρ c) :=
  (W5_of_ne m ρ c main_arg5 (by decide)).trans (w4_arg5 m ρ c)
theorem w5_arg6 : W5 m ρ c (Proc.devRef .tc main_arg6) = (A6 m ρ c) :=
  (W5_of_ne m ρ c main_arg6 (by decide)).trans (w4_arg6 m ρ c)
theorem w5_arg7 : W5 m ρ c (Proc.devRef .tc main_arg7) = (A7 m ρ c) :=
  (W5_of_ne m ρ c main_arg7 (by decide)).trans (w4_arg7 m ρ c)

/-! ## After the second layer's stretch -/

theorem w6_collect : W6 m ρ c (Proc.devRef .tc main_v77) = collect128 (SRC m ρ c) (DST m ρ c) (DIS m ρ c) (dense (H1 m ρ c) (A4 m ρ c)) :=
  (Stretch.s3_collect (W5 m ρ c)).trans (by rw [w5_src m ρ c, w5_dst m ρ c, w5_dis m ρ c, w5_h m ρ c])
theorem w6_bias : W6 m ρ c (Proc.devRef .tc main_v79) = shapeCast Cert.ReferenceIdeal.S1x128 (A5 m ρ c) cast_S128_row :=
  (Stretch.s3_bias (W5 m ρ c)).trans (by rw [w5_arg5 m ρ c])
theorem w6_self : W6 m ρ c (Proc.devRef .tc main_v80) = shapeCast Cert.ReferenceIdeal.S100000x1 (selfWeight (DIS m ρ c)) cast_S100000_col :=
  (Stretch.s3_self (W5 m ρ c)).trans (by rw [w5_dis m ρ c])
theorem w6_h : W6 m ρ c (Proc.devRef .tc main_v49) = dense (H1 m ρ c) (A4 m ρ c) := (Stretch.s3_keep_v49 (W5 m ρ c)).trans (w5_h m ρ c)
theorem w6_src : W6 m ρ c (Proc.devRef .tc main_v1) = (SRC m ρ c) :=
  (Stretch.s3_keep_v1 (W5 m ρ c)).trans (w5_src m ρ c)
theorem w6_dst : W6 m ρ c (Proc.devRef .tc main_v3) = (DST m ρ c) :=
  (Stretch.s3_keep_v3 (W5 m ρ c)).trans (w5_dst m ρ c)
theorem w6_dis : W6 m ρ c (Proc.devRef .tc main_v15) = (DIS m ρ c) :=
  (Stretch.s3_keep_v15 (W5 m ρ c)).trans (w5_dis m ρ c)
theorem w6_arg6 : W6 m ρ c (Proc.devRef .tc main_arg6) = (A6 m ρ c) :=
  (Stretch.s3_keep_arg6 (W5 m ρ c)).trans (w5_arg6 m ρ c)
theorem w6_arg7 : W6 m ρ c (Proc.devRef .tc main_arg7) = (A7 m ρ c) :=
  (Stretch.s3_keep_arg7 (W5 m ρ c)).trans (w5_arg7 m ρ c)

/-! ## After region 3: the second layer's output -/

theorem w7_out : W7 m ρ c (Proc.devRef .tc main_v81) = (H2 m ρ c) :=
  (W7_arr m ρ c 4).trans ((Region3.final (V6 m ρ) c).trans (by
    rw [show V6 m ρ c main_v77 = _ from w6_collect m ρ c, show V6 m ρ c main_v49 = _ from w6_h m ρ c,
      show V6 m ρ c main_v79 = _ from w6_bias m ρ c, show V6 m ρ c main_v80 = _ from w6_self m ρ c]
    rfl))
theorem w7_src : W7 m ρ c (Proc.devRef .tc main_v1) = (SRC m ρ c) :=
  (W7_of_ne m ρ c main_v1 (by decide)).trans (w6_src m ρ c)
theorem w7_dst : W7 m ρ c (Proc.devRef .tc main_v3) = (DST m ρ c) :=
  (W7_of_ne m ρ c main_v3 (by decide)).trans (w6_dst m ρ c)
theorem w7_dis : W7 m ρ c (Proc.devRef .tc main_v15) = (DIS m ρ c) :=
  (W7_of_ne m ρ c main_v15 (by decide)).trans (w6_dis m ρ c)
theorem w7_arg6 : W7 m ρ c (Proc.devRef .tc main_arg6) = (A6 m ρ c) :=
  (W7_of_ne m ρ c main_arg6 (by decide)).trans (w6_arg6 m ρ c)
theorem w7_arg7 : W7 m ρ c (Proc.devRef .tc main_arg7) = (A7 m ρ c) :=
  (W7_of_ne m ρ c main_arg7 (by decide)).trans (w6_arg7 m ρ c)

/-! ## After region 4: the third product -/

theorem w8_h : W8 m ρ c (Proc.devRef .tc main_v82) = dense (H2 m ρ c) (A6 m ρ c) :=
  (W8_arr m ρ c 2).trans ((Region4.final (V7 m ρ) c).trans (congrArg₂ dense (w7_out m ρ c) (w7_arg6 m ρ c)))
theorem w8_src : W8 m ρ c (Proc.devRef .tc main_v1) = (SRC m ρ c) :=
  (W8_of_ne m ρ c main_v1 (by decide)).trans (w7_src m ρ c)
theorem w8_dst : W8 m ρ c (Proc.devRef .tc main_v3) = (DST m ρ c) :=
  (W8_of_ne m ρ c main_v3 (by decide)).trans (w7_dst m ρ c)
theorem w8_dis : W8 m ρ c (Proc.devRef .tc main_v15) = (DIS m ρ c) :=
  (W8_of_ne m ρ c main_v15 (by decide)).trans (w7_dis m ρ c)
theorem w8_arg7 : W8 m ρ c (Proc.devRef .tc main_arg7) = (A7 m ρ c) :=
  (W8_of_ne m ρ c main_arg7 (by decide)).trans (w7_arg7 m ρ c)

/-! ## After the third layer's stretch -/

theorem w9_collect : W9 m ρ c (Proc.devRef .tc main_v110) = collect16 (SRC m ρ c) (DST m ρ c) (DIS m ρ c) (dense (H2 m ρ c) (A6 m ρ c)) :=
  (Stretch.s5_collect (W8 m ρ c)).trans (by rw [w8_src m ρ c, w8_dst m ρ c, w8_dis m ρ c, w8_h m ρ c])
theorem w9_bias : W9 m ρ c (Proc.devRef .tc main_v112) = shapeCast Cert.ReferenceIdeal.S1x16 (A7 m ρ c) cast_S16_row :=
  (Stretch.s5_bias (W8 m ρ c)).trans (by rw [w8_arg7 m ρ c])
theorem w9_self : W9 m ρ c (Proc.devRef .tc main_v113) = shapeCast Cert.ReferenceIdeal.S100000x1 (selfWeight (DIS m ρ c)) cast_S100000_col :=
  (Stretch.s5_self (W8 m ρ c)).trans (by rw [w8_dis m ρ c])
theorem w9_h : W9 m ρ c (Proc.devRef .tc main_v82) = dense (H2 m ρ c) (A6 m ρ c) := (Stretch.s5_keep_v82 (W8 m ρ c)).trans (w8_h m ρ c)

/-! ## After region 5: the result -/

/-- The result buffer at the last boundary is the network, with tiled products and last steps, of the launch contents. -/
theorem result : W10 m ρ c (Proc.devRef .tc main_v114) = tiledNet (A0 m ρ c) (A1 m ρ c) (A2 m ρ c) (A3 m ρ c) (A4 m ρ c) (A5 m ρ c) (A6 m ρ c) (A7 m ρ c) :=
  (W10_arr m ρ c 4).trans ((Region5.final (V9 m ρ) c).trans (by
    rw [show V9 m ρ c main_v110 = _ from w9_collect m ρ c, show V9 m ρ c main_v82 = _ from w9_h m ρ c,
      show V9 m ρ c main_v112 = _ from w9_bias m ρ c, show V9 m ρ c main_v113 = _ from w9_self m ρ c]
    rfl))

end Cert.KernelIdeal.Walk

end
-- ==== Proof.RefValue.lean ====
/-
  THE REFERENCE'S RESULT IS THE NETWORK IN THE HOST'S OPERATIONS. The reference program is one straight line of host
  operations; its result as a term of the argument arrays is, operation for operation, `hostNet`: the definitions of
  the network's parts (sources and destinations of the edges, inverse square roots of the degrees, edge and self-loop
  weights, collecting, the three layers) only give names to pieces of that term.
-/
import proofs.«170677_j58720792871581_1_alg».proof.Proof.Gen.ReferenceIdeal.Run
import proofs.«170677_j58720792871581_1_alg».proof.Proof.Network

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.Net

set_option maxRecDepth 16384 in
set_option maxHeartbeats 4000000 in
theorem result (m : (ℓ : Loc nD τ sig) → Buf (Elt Ideal) ℓ) (c : Dev nD) :
    res_main_v128 (F := Ideal) m c
      = hostNet (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold res_main_v128
  rfl

end Cert.ReferenceIdeal.RefValue

end
-- ==== Proof.lean ====
/-
  A three-layer graph convolution on 100000 nodes and 1600000 edges: the program that computes each layer's matrix
  product and its last step (messages + scaled own features + bias, cut off at zero in the two hidden layers) in
  row bands of 2000 nodes, against the plain array program.

  On exact values the two compute the same array, entry by entry and with no law of arithmetic beyond reading each
  operation at an index:
    a band of the tiled product is the same sum over k of features (row, k) · weights (k, column) as the whole
    product's entry, rounding the operands to a narrower format being the identity on exact values, and the bands tile
    the rows (`dense`);
    a band of the tiled last step is, entry by entry, (messages + product · self-loop weight of the row) + bias of the
    column, which is what the plain program's broadcasts of the weight vector along the columns and of the bias down
    the rows give (`combine`, `combineRelu`);
    everything between — the edges' endpoints, the degrees' inverse square roots, gathering rows at the sources,
    weighing them and adding them up at the destinations — is the same operations in both programs, applied to equal
    arrays.
  So the tiled program's result buffer ends at `tiledNet` of the argument arrays, the plain program's at `hostNet`,
  and the two are equal (`tiledNet_eq`). Nothing was rewritten between the program as printed and its exact reading,
  and no finiteness of the inputs is used.
-/
import proofs.«170677_j58720792871581_1_alg».proof.Defs
import proofs.«170677_j58720792871581_1_alg».proof.Proof.Gen.Kernel
import proofs.«170677_j58720792871581_1_alg».proof.Proof.Gen.Kernel.Skeleton
import proofs.«170677_j58720792871581_1_alg».proof.Proof.Gen.Kernel.Launch
import proofs.«170677_j58720792871581_1_alg».proof.Proof.Gen.Kernel.Points
import proofs.«170677_j58720792871581_1_alg».proof.Proof.Gen.Kernel.Frame
import proofs.«170677_j58720792871581_1_alg».proof.Proof.Gen.KernelIdeal
import proofs.«170677_j58720792871581_1_alg».proof.Proof.Gen.KernelIdeal.Skeleton
import proofs.«170677_j58720792871581_1_alg».proof.Proof.Gen.KernelIdeal.Launch
import proofs.«170677_j58720792871581_1_alg».proof.Proof.Gen.KernelIdeal.Points
import proofs.«170677_j58720792871581_1_alg».proof.Proof.Gen.KernelIdeal.Frame
import proofs.«170677_j58720792871581_1_alg».proof.Proof.Gen.ReferenceIdeal
import proofs.«170677_j58720792871581_1_alg».proof.Proof.Gen.ReferenceIdeal.Run
import proofs.«170677_j58720792871581_1_alg».proof.Proof.Gen.Pre_finite_inputs
import proofs.«170677_j58720792871581_1_alg».proof.Proof.Network
import proofs.«170677_j58720792871581_1_alg».proof.Proof.KernelRun
import proofs.«170677_j58720792871581_1_alg».proof.Proof.Walk
import proofs.«170677_j58720792871581_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the printed program and its exact reading. -/
theorem preserves : Cert.preserves_Kernel_KernelIdeal := trivial

/-- Both programs end with the network of the argument arrays in their result buffers: the tiled one by the walk
    through its ten segments and `tiledNet_eq`, the plain one by reading its line of operations. -/
theorem algebraic : Cert.algebraic_KernelIdeal_ReferenceIdeal := by
  intro m ρ m' ρ' _ hagree
  refine ⟨fun c => Cert.Net.hostNet
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Whole.run (F := Ideal) m ρ)
    exact (Cert.KernelIdeal.Walk.result m ρ c).trans (Cert.Net.tiledNet_eq _ _ _ _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result m' c, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
